-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100x1 : Shape := ⟨3, ![16, 100, 1]⟩
abbrev S16x100x51 : Shape := ⟨3, ![16, 100, 51]⟩
abbrev S16x100x8 : Shape := ⟨3, ![16, 100, 8]⟩
abbrev S16x100x10 : Shape := ⟨3, ![16, 100, 10]⟩
abbrev S16x100 : Shape := ⟨2, ![16, 100]⟩
abbrev S_ : Shape := ⟨0, ![]⟩

class Facts : Prop where
  bcast_S_S16x100x1 : S_.BroadcastsInDim S16x100x1 (![] : Fin 0 → Fin S16x100x1.rank)
  reducesTo_S16x100x1_S_d0_1_2 : S16x100x1.ReducesTo [0, 1, 2] S_
  h_S_ : 0 < S_.numel
  bcast_S_S16x100x51 : S_.BroadcastsInDim S16x100x51 (![] : Fin 0 → Fin S16x100x51.rank)
  reducesTo_S16x100x51_S_d0_1_2 : S16x100x51.ReducesTo [0, 1, 2] S_
  bcast_S_S16x100x8 : S_.BroadcastsInDim S16x100x8 (![] : Fin 0 → Fin S16x100x8.rank)
  reducesTo_S16x100x8_S_d0_1_2 : S16x100x8.ReducesTo [0, 1, 2] S_
  bcast_S_S16x100x10 : S_.BroadcastsInDim S16x100x10 (![] : Fin 0 → Fin S16x100x10.rank)
  reducesTo_S16x100x10_S_d0_1_2 : S16x100x10.ReducesTo [0, 1, 2] S_
  bcast_S_S16x100 : S_.BroadcastsInDim S16x100 (![] : Fin 0 → Fin S16x100.rank)
  reducesTo_S16x100_S_d0_1 : S16x100.ReducesTo [0, 1] S_

variable [Facts]

def fn_part1 {F : FTy → Type} [FloatOps F] (main_arg4 : FVec F S16x100 .f32) (main_arg5 : FVec F S16x100x51 .f32) (main_v13 : IVec S_ 1) (main_v16 : IVec S16x100x10 1) : IVec S_ 1 :=
  let main_c_5 : IVec S_ 1 := constantI S_ 1 1#1
  let main_v17 : IVec S_ 1 := (fun x v => Host.reduce IntOp.andi x v reducesTo_S16x100x10_S_d0_1_2 h_S_) main_v16 main_c_5
  let main_v18 : IVec S_ 1 := andi main_v13 main_v17
  let main_v19 : FVec F S16x100 .f32 := Host.absf main_arg4
  let main_cst_6 : FVec F S_ .f32 := constant S_ .f32 0x7F800000#32
  let main_v20 : FVec F S16x100 .f32 := broadcastInDim S16x100 ![] bcast_S_S16x100 main_cst_6
  let main_v21 : IVec S16x100 1 := cmpf .olt main_v19 main_v20
  let main_c_7 : IVec S_ 1 := constantI S_ 1 1#1
  let main_v22 : IVec S_ 1 := (fun x v => Host.reduce IntOp.andi x v reducesTo_S16x100_S_d0_1 h_S_) main_v21 main_c_7
  let main_v23 : IVec S_ 1 := andi main_v18 main_v22
  let main_v24 : FVec F S16x100x51 .f32 := Host.absf main_arg5
  let main_cst_8 : FVec F S_ .f32 := constant S_ .f32 0x7F800000#32
  let main_v25 : FVec F S16x100x51 .f32 := broadcastInDim S16x100x51 ![] bcast_S_S16x100x51 main_cst_8
  let main_v26 : IVec S16x100x51 1 := cmpf .olt main_v24 main_v25
  let main_c_9 : IVec S_ 1 := constantI S_ 1 1#1
  let main_v27 : IVec S_ 1 := (fun x v => Host.reduce IntOp.andi x v reducesTo_S16x100x51_S_d0_1_2 h_S_) main_v26 main_c_9
  let main_v28 : IVec S_ 1 := andi main_v23 main_v27
  main_v28

def fn {F : FTy → Type} [FloatOps F] (main_arg0 : FVec F S16x100x1 .f32) (main_arg1 : FVec F S16x100x51 .f32) (main_arg2 : FVec F S16x100x8 .f32) (main_arg3 : FVec F S16x100x10 .f32) (main_arg4 : FVec F S16x100 .f32) (main_arg5 : FVec F S16x100x51 .f32) (main_arg6 : IVec S16x100 32) (main_arg7 : IVec S16x100 32) : IVec S_ 1 :=
  let main_v0 : FVec F S16x100x1 .f32 := Host.absf main_arg0
  let main_cst : FVec F S_ .f32 := constant S_ .f32 0x7F800000#32
  let main_v1 : FVec F S16x100x1 .f32 := broadcastInDim S16x100x1 ![] bcast_S_S16x100x1 main_cst
  let main_v2 : IVec S16x100x1 1 := cmpf .olt main_v0 main_v1
  let main_c : IVec S_ 1 := constantI S_ 1 1#1
  let main_v3 : IVec S_ 1 := (fun x v => Host.reduce IntOp.andi x v reducesTo_S16x100x1_S_d0_1_2 h_S_) main_v2 main_c
  let main_v4 : FVec F S16x100x51 .f32 := Host.absf main_arg1
  let main_cst_0 : FVec F S_ .f32 := constant S_ .f32 0x7F800000#32
  let main_v5 : FVec F S16x100x51 .f32 := broadcastInDim S16x100x51 ![] bcast_S_S16x100x51 main_cst_0
  let main_v6 : IVec S16x100x51 1 := cmpf .olt main_v4 main_v5
  let main_c_1 : IVec S_ 1 := constantI S_ 1 1#1
  let main_v7 : IVec S_ 1 := (fun x v => Host.reduce IntOp.andi x v reducesTo_S16x100x51_S_d0_1_2 h_S_) main_v6 main_c_1
  let main_v8 : IVec S_ 1 := andi main_v3 main_v7
  let main_v9 : FVec F S16x100x8 .f32 := Host.absf main_arg2
  let main_cst_2 : FVec F S_ .f32 := constant S_ .f32 0x7F800000#32
  let main_v10 : FVec F S16x100x8 .f32 := broadcastInDim S16x100x8 ![] bcast_S_S16x100x8 main_cst_2
  let main_v11 : IVec S16x100x8 1 := cmpf .olt main_v9 main_v10
  let main_c_3 : IVec S_ 1 := constantI S_ 1 1#1
  let main_v12 : IVec S_ 1 := (fun x v => Host.reduce IntOp.andi x v reducesTo_S16x100x8_S_d0_1_2 h_S_) main_v11 main_c_3
  let main_v13 : IVec S_ 1 := andi main_v8 main_v12
  let main_v14 : FVec F S16x100x10 .f32 := Host.absf main_arg3
  let main_cst_4 : FVec F S_ .f32 := constant S_ .f32 0x7F800000#32
  let main_v15 : FVec F S16x100x10 .f32 := broadcastInDim S16x100x10 ![] bcast_S_S16x100x10 main_cst_4
  let main_v16 : IVec S16x100x10 1 := cmpf .olt main_v14 main_v15
  fn_part1 (F := F) main_arg4 main_arg5 main_v13 main_v16
-- ==== Kernel.lean ====
abbrev S16x100x1 : Shape := ⟨3, ![16, 100, 1]⟩
abbrev S16x100x51 : Shape := ⟨3, ![16, 100, 51]⟩
abbrev S16x100x8 : Shape := ⟨3, ![16, 100, 8]⟩
abbrev S16x100x10 : Shape := ⟨3, ![16, 100, 10]⟩
abbrev S16x100 : Shape := ⟨2, ![16, 100]⟩
abbrev S_ : Shape := ⟨0, ![]⟩
abbrev S16x100x56 : Shape := ⟨3, ![16, 100, 56]⟩
abbrev S16x56x100 : Shape := ⟨3, ![16, 56, 100]⟩
abbrev S16x1x100 : Shape := ⟨3, ![16, 1, 100]⟩
abbrev S16x100x100 : Shape := ⟨3, ![16, 100, 100]⟩
abbrev S4x100x1 : Shape := ⟨3, ![4, 100, 1]⟩
abbrev S4x56x100 : Shape := ⟨3, ![4, 56, 100]⟩
abbrev S4x100x8 : Shape := ⟨3, ![4, 100, 8]⟩
abbrev S4x100x10 : Shape := ⟨3, ![4, 100, 10]⟩
abbrev S4x1x100 : Shape := ⟨3, ![4, 1, 100]⟩
abbrev S4x100x100 : Shape := ⟨3, ![4, 100, 100]⟩
abbrev S1x100x1 : Shape := ⟨3, ![1, 100, 1]⟩
abbrev S100x1 : Shape := ⟨2, ![100, 1]⟩
abbrev S1x1x100 : Shape := ⟨3, ![1, 1, 100]⟩
abbrev S1x100 : Shape := ⟨2, ![1, 100]⟩
abbrev S100x100 : Shape := ⟨2, ![100, 100]⟩
abbrev S1x56x100 : Shape := ⟨3, ![1, 56, 100]⟩
abbrev S56x100 : Shape := ⟨2, ![56, 100]⟩
abbrev S8x100 : Shape := ⟨2, ![8, 100]⟩
abbrev S8x100x1 : Shape := ⟨3, ![8, 100, 1]⟩
abbrev S8x1x100 : Shape := ⟨3, ![8, 1, 100]⟩
abbrev S8x100x100 : Shape := ⟨3, ![8, 100, 100]⟩
abbrev S1x100x8 : Shape := ⟨3, ![1, 100, 8]⟩
abbrev S100x8 : Shape := ⟨2, ![100, 8]⟩
abbrev S100 : Shape := ⟨1, ![100]⟩
abbrev S1x100x10 : Shape := ⟨3, ![1, 100, 10]⟩
abbrev S100x10 : Shape := ⟨2, ![100, 10]⟩
abbrev S1x100x100 : Shape := ⟨3, ![1, 100, 100]⟩

abbrev nBuf : Space → Nat
  | .hbm => 18
  | .vmem => 14
  | .smem => 0
  | _ => 0

abbrev bufTy : (tb : Table) → Fin (tcTables nBuf tb) → BufTy
  | .hbm, ⟨0, _⟩ => ⟨S16x100x1, .f32⟩
  | .hbm, ⟨1, _⟩ => ⟨S16x100x51, .f32⟩
  | .hbm, ⟨2, _⟩ => ⟨S16x100x8, .f32⟩
  | .hbm, ⟨3, _⟩ => ⟨S16x100x10, .f32⟩
  | .hbm, ⟨4, _⟩ => ⟨S16x100, .f32⟩
  | .hbm, ⟨5, _⟩ => ⟨S16x100x51, .f32⟩
  | .hbm, ⟨6, _⟩ => ⟨S16x100, .i32⟩
  | .hbm, ⟨7, _⟩ => ⟨S16x100, .i32⟩
  | .hbm, ⟨8, _⟩ => ⟨S_, .i32⟩
  | .hbm, ⟨9, _⟩ => ⟨S_, .f32⟩
  | .hbm, ⟨10, _⟩ => ⟨S16x100x56, .f32⟩
  | .hbm, ⟨11, _⟩ => ⟨S16x56x100, .f32⟩
  | .hbm, ⟨12, _⟩ => ⟨S_, .i32⟩
  | .hbm, ⟨13, _⟩ => ⟨S_, .f32⟩
  | .hbm, ⟨14, _⟩ => ⟨S16x100x56, .f32⟩
  | .hbm, ⟨15, _⟩ => ⟨S16x56x100, .f32⟩
  | .hbm, ⟨16, _⟩ => ⟨S16x1x100, .f32⟩
  | .hbm, ⟨17, _⟩ => ⟨S16x100x100, .f32⟩
  | .local _ .vmem, ⟨0, _⟩ => ⟨S4x100x1, .f32⟩
  | .local _ .vmem, ⟨1, _⟩ => ⟨S4x100x1, .f32⟩
  | .local _ .vmem, ⟨2, _⟩ => ⟨S4x56x100, .f32⟩
  | .local _ .vmem, ⟨3, _⟩ => ⟨S4x56x100, .f32⟩
  | .local _ .vmem, ⟨4, _⟩ => ⟨S4x100x8, .f32⟩
  | .local _ .vmem, ⟨5, _⟩ => ⟨S4x100x8, .f32⟩
  | .local _ .vmem, ⟨6, _⟩ => ⟨S4x100x10, .f32⟩
  | .local _ .vmem, ⟨7, _⟩ => ⟨S4x100x10, .f32⟩
  | .local _ .vmem, ⟨8, _⟩ => ⟨S4x1x100, .f32⟩
  | .local _ .vmem, ⟨9, _⟩ => ⟨S4x1x100, .f32⟩
  | .local _ .vmem, ⟨10, _⟩ => ⟨S4x56x100, .f32⟩
  | .local _ .vmem, ⟨11, _⟩ => ⟨S4x56x100, .f32⟩
  | .local _ .vmem, ⟨12, _⟩ => ⟨S4x100x100, .f32⟩
  | .local _ .vmem, ⟨13, _⟩ => ⟨S4x100x100, .f32⟩
  | _, _ => ⟨S16x100x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x100x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x56x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x100x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x100x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x56x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x100x100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S16x100x51_S16x100x56_000_000_050 : S16x100x51.Pads (![0, 0, 0] : Fin 3 → Nat) ![0, 0, 5] ![0, 0, 0] S16x100x56
  h_S_ : 0 < S_.numel
  transposes_S16x100x56_S16x56x100_0_2_1 : S16x100x56.Transposes [0, 2, 1] S16x56x100
  shapeCasts_S16x100_S16x1x100 : S16x100.ShapeCasts S16x1x100
  inb_S4x100x1_S1x100x1_0_0_0 : ∀ a, (![0, 0, 0] : Fin 3 → Nat) a + S1x100x1.size a ≤ S4x100x1.size a
  h_S1x100x1 : 0 < S1x100x1.numel
  shapeCasts_S1x100x1_S100x1 : S1x100x1.ShapeCasts S100x1
  inb_S4x1x100_S1x1x100_0_0_0 : ∀ a, (![0, 0, 0] : Fin 3 → Nat) a + S1x1x100.size a ≤ S4x1x100.size a
  h_S1x1x100 : 0 < S1x1x100.numel
  shapeCasts_S1x1x100_S1x100 : S1x1x100.ShapeCasts S1x100
  broadcasts_S1x100_S100x100 : S1x100.Broadcasts S100x100
  broadcasts_S100x1_S100x100 : S100x1.Broadcasts S100x100
  inb_S4x56x100_S1x56x100_0_0_0 : ∀ a, (![0, 0, 0] : Fin 3 → Nat) a + S1x56x100.size a ≤ S4x56x100.size a
  h_S1x56x100 : 0 < S1x56x100.numel
  shapeCasts_S1x56x100_S56x100 : S1x56x100.ShapeCasts S56x100
  slices_S56x100_o0_0_S8x100 : S56x100.Slices ![0, 0] S8x100
  shapeCasts_S8x100_S8x100x1 : S8x100.ShapeCasts S8x100x1
  shapeCasts_S8x100_S8x1x100 : S8x100.ShapeCasts S8x1x100
  broadcasts_S8x100x1_S8x100x100 : S8x100x1.Broadcasts S8x100x100
  broadcasts_S8x1x100_S8x100x100 : S8x1x100.Broadcasts S8x100x100
  reduces_S8x100x100_S100x100 : S8x100x100.Reduces [0] S100x100
  slices_S56x100_o8_0_S8x100 : S56x100.Slices ![8, 0] S8x100
  slices_S56x100_o16_0_S8x100 : S56x100.Slices ![16, 0] S8x100
  slices_S56x100_o24_0_S8x100 : S56x100.Slices ![24, 0] S8x100
  slices_S56x100_o32_0_S8x100 : S56x100.Slices ![32, 0] S8x100
  slices_S56x100_o40_0_S8x100 : S56x100.Slices ![40, 0] S8x100
  slices_S56x100_o48_0_S8x100 : S56x100.Slices ![48, 0] S8x100
  inb_S4x100x8_S1x100x8_0_0_0 : ∀ a, (![0, 0, 0] : Fin 3 → Nat) a + S1x100x8.size a ≤ S4x100x8.size a
  h_S1x100x8 : 0 < S1x100x8.numel
  shapeCasts_S1x100x8_S100x8 : S1x100x8.ShapeCasts S100x8
  reduces_S100x8_S100 : S100x8.Reduces [1] S100
  shapeCasts_S100_S100x1 : S100.ShapeCasts S100x1
  broadcasts_S100x1_S100x8 : S100x1.Broadcasts S100x8
  slices_S100x8_o0_0_S100x1 : S100x8.Slices ![0, 0] S100x1
  inb_S4x100x10_S1x100x10_0_0_0 : ∀ a, (![0, 0, 0] : Fin 3 → Nat) a + S1x100x10.size a ≤ S4x100x10.size a
  h_S1x100x10 : 0 < S1x100x10.numel
  shapeCasts_S1x100x10_S100x10 : S1x100x10.ShapeCasts S100x10
  reduces_S100x10_S100 : S100x10.Reduces [1] S100
  broadcasts_S100x1_S100x10 : S100x1.Broadcasts S100x10
  slices_S100x10_o0_0_S100x1 : S100x10.Slices ![0, 0] S100x1
  inb_S4x100x100_S1x100x100_0_0_0 : ∀ a, (![0, 0, 0] : Fin 3 → Nat) a + S1x100x100.size a ≤ S4x100x100.size a
  h_S1x100x100 : 0 < S1x100x100.numel
  shapeCasts_S1x100x100_S100x100 : S1x100x100.ShapeCasts S100x100
  shapeCasts_S100x100_S1x100x100 : S100x100.ShapeCasts S1x100x100
  inb_S4x100x1_S1x100x1_1_0_0 : ∀ a, (![1, 0, 0] : Fin 3 → Nat) a + S1x100x1.size a ≤ S4x100x1.size a
  inb_S4x1x100_S1x1x100_1_0_0 : ∀ a, (![1, 0, 0] : Fin 3 → Nat) a + S1x1x100.size a ≤ S4x1x100.size a
  inb_S4x56x100_S1x56x100_1_0_0 : ∀ a, (![1, 0, 0] : Fin 3 → Nat) a + S1x56x100.size a ≤ S4x56x100.size a
  inb_S4x100x8_S1x100x8_1_0_0 : ∀ a, (![1, 0, 0] : Fin 3 → Nat) a + S1x100x8.size a ≤ S4x100x8.size a
  inb_S4x100x10_S1x100x10_1_0_0 : ∀ a, (![1, 0, 0] : Fin 3 → Nat) a + S1x100x10.size a ≤ S4x100x10.size a
  inb_S4x100x100_S1x100x100_1_0_0 : ∀ a, (![1, 0, 0] : Fin 3 → Nat) a + S1x100x100.size a ≤ S4x100x100.size a
  inb_S4x100x1_S1x100x1_2_0_0 : ∀ a, (![2, 0, 0] : Fin 3 → Nat) a + S1x100x1.size a ≤ S4x100x1.size a
  inb_S4x1x100_S1x1x100_2_0_0 : ∀ a, (![2, 0, 0] : Fin 3 → Nat) a + S1x1x100.size a ≤ S4x1x100.size a
  inb_S4x56x100_S1x56x100_2_0_0 : ∀ a, (![2, 0, 0] : Fin 3 → Nat) a + S1x56x100.size a ≤ S4x56x100.size a
  inb_S4x100x8_S1x100x8_2_0_0 : ∀ a, (![2, 0, 0] : Fin 3 → Nat) a + S1x100x8.size a ≤ S4x100x8.size a
  inb_S4x100x10_S1x100x10_2_0_0 : ∀ a, (![2, 0, 0] : Fin 3 → Nat) a + S1x100x10.size a ≤ S4x100x10.size a
  inb_S4x100x100_S1x100x100_2_0_0 : ∀ a, (![2, 0, 0] : Fin 3 → Nat) a + S1x100x100.size a ≤ S4x100x100.size a
  inb_S4x100x1_S1x100x1_3_0_0 : ∀ a, (![3, 0, 0] : Fin 3 → Nat) a + S1x100x1.size a ≤ S4x100x1.size a
  inb_S4x1x100_S1x1x100_3_0_0 : ∀ a, (![3, 0, 0] : Fin 3 → Nat) a + S1x1x100.size a ≤ S4x1x100.size a
  inb_S4x56x100_S1x56x100_3_0_0 : ∀ a, (![3, 0, 0] : Fin 3 → Nat) a + S1x56x100.size a ≤ S4x56x100.size a
  inb_S4x100x8_S1x100x8_3_0_0 : ∀ a, (![3, 0, 0] : Fin 3 → Nat) a + S1x100x8.size a ≤ S4x100x8.size a
  inb_S4x100x10_S1x100x10_3_0_0 : ∀ a, (![3, 0, 0] : Fin 3 → Nat) a + S1x100x10.size a ≤ S4x100x10.size a
  inb_S4x100x100_S1x100x100_3_0_0 : ∀ a, (![3, 0, 0] : Fin 3 → Nat) a + S1x100x100.size a ≤ S4x100x100.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x100x1.size a ≤ S16x100x1.size a
  hwx0_0 : ∀ i : grid0.Coords, EltTy.bits .f32 = 32 ∨ (Rect.block (s := S16x100x1) S4x100x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x56x100.size a ≤ S16x56x100.size a
  hwx0_1 : ∀ i : grid0.Coords, EltTy.bits .f32 = 32 ∨ (Rect.block (s := S16x56x100) S4x56x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x100x8.size a ≤ S16x100x8.size a
  hwx0_2 : ∀ i : grid0.Coords, EltTy.bits .f32 = 32 ∨ (Rect.block (s := S16x100x8) S4x100x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x100x10.size a ≤ S16x100x10.size a
  hwx0_3 : ∀ i : grid0.Coords, EltTy.bits .f32 = 32 ∨ (Rect.block (s := S16x100x10) S4x100x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x100.size a ≤ S16x1x100.size a
  hwx0_4 : ∀ i : grid0.Coords, EltTy.bits .f32 = 32 ∨ (Rect.block (s := S16x1x100) S4x1x100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x56x100.size a ≤ S16x56x100.size a
  hwx0_5 : ∀ i : grid0.Coords, EltTy.bits .f32 = 32 ∨ (Rect.block (s := S16x56x100) S4x56x100.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x100x100.size a ≤ S16x100x100.size a
  hwx0_6 : ∀ i : grid0.Coords, EltTy.bits .f32 = 32 ∨ (Rect.block (s := S16x100x100) S4x100x100.size (cc0_transform_6 i) (hinb0_6 i)).WholeWords (EltTy.packing .f32)

variable [Facts₀]

abbrev win0_0 : Pipeline.Window sig grid0 :=
  Pipeline.Window.ofSpec (Memref.whole main_arg0) S4x100x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x56x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x100x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x100x10.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4x1x100.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4x56x100.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S4x100x100.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x100x1 : Shape := ⟨3, ![16, 100, 1]⟩
abbrev S16x100x51 : Shape := ⟨3, ![16, 100, 51]⟩
abbrev S16x100x8 : Shape := ⟨3, ![16, 100, 8]⟩
abbrev S16x100x10 : Shape := ⟨3, ![16, 100, 10]⟩
abbrev S16x100 : Shape := ⟨2, ![16, 100]⟩
abbrev S_ : Shape := ⟨0, ![]⟩
abbrev S1600 : Shape := ⟨1, ![1600]⟩
abbrev S1x1600 : Shape := ⟨2, ![1, 1600]⟩
abbrev S1600x1 : Shape := ⟨2, ![1600, 1]⟩
abbrev S1600x1600 : Shape := ⟨2, ![1600, 1600]⟩
abbrev S1600x51 : Shape := ⟨2, ![1600, 51]⟩
abbrev S1600x1x51 : Shape := ⟨3, ![1600, 1, 51]⟩
abbrev S1x1600x51 : Shape := ⟨3, ![1, 1600, 51]⟩
abbrev S1600x1600x51 : Shape := ⟨3, ![1600, 1600, 51]⟩
abbrev S1600x8 : Shape := ⟨2, ![1600, 8]⟩
abbrev S1600x10 : Shape := ⟨2, ![1600, 10]⟩
abbrev S16x100x16x100 : Shape := ⟨4, ![16, 100, 16, 100]⟩
abbrev S16 : Shape := ⟨1, ![16]⟩
abbrev S16x1 : Shape := ⟨2, ![16, 1]⟩
abbrev S16x2 : Shape := ⟨2, ![16, 2]⟩
abbrev S16x100x100 : Shape := ⟨3, ![16, 100, 100]⟩

abbrev nBuf : Space → Nat
  | .hbm => 122
  | .vmem => 0
  | .smem => 0
  | _ => 0

abbrev bufTy : (tb : Table) → Fin (tcTables nBuf tb) → BufTy
  | .hbm, ⟨0, _⟩ => ⟨S16x100x1, .f32⟩
  | .hbm, ⟨1, _⟩ => ⟨S16x100x51, .f32⟩
  | .hbm, ⟨2, _⟩ => ⟨S16x100x8, .f32⟩
  | .hbm, ⟨3, _⟩ => ⟨S16x100x10, .f32⟩
  | .hbm, ⟨4, _⟩ => ⟨S16x100, .f32⟩
  | .hbm, ⟨5, _⟩ => ⟨S16x100x51, .f32⟩
  | .hbm, ⟨6, _⟩ => ⟨S16x100, .i32⟩
  | .hbm, ⟨7, _⟩ => ⟨S16x100, .i32⟩
  | .hbm, ⟨8, _⟩ => ⟨S16x100x1, .f32⟩
  | .hbm, ⟨9, _⟩ => ⟨S16x100x1, .f32⟩
  | .hbm, ⟨10, _⟩ => ⟨S_, .f32⟩
  | .hbm, ⟨11, _⟩ => ⟨S16x100x1, .f32⟩
  | .hbm, ⟨12, _⟩ => ⟨S16x100x1, .f32⟩
  | .hbm, ⟨13, _⟩ => ⟨S_, .f32⟩
  | .hbm, ⟨14, _⟩ => ⟨S16x100x1, .f32⟩
  | .hbm, ⟨15, _⟩ => ⟨S16x100x1, .f32⟩
  | .hbm, ⟨16, _⟩ => ⟨S1600, .f32⟩
  | .hbm, ⟨17, _⟩ => ⟨S1600, .f32⟩
  | .hbm, ⟨18, _⟩ => ⟨S1600, .f32⟩
  | .hbm, ⟨19, _⟩ => ⟨S1600, .f32⟩
  | .hbm, ⟨20, _⟩ => ⟨S1600, .f32⟩
  | .hbm, ⟨21, _⟩ => ⟨S1x1600, .f32⟩
  | .hbm, ⟨22, _⟩ => ⟨S1600x1, .f32⟩
  | .hbm, ⟨23, _⟩ => ⟨S1600x1600, .f32⟩
  | .hbm, ⟨24, _⟩ => ⟨S1600x1600, .f32⟩
  | .hbm, ⟨25, _⟩ => ⟨S1600x1600, .f32⟩
  | .hbm, ⟨26, _⟩ => ⟨S1x1600, .f32⟩
  | .hbm, ⟨27, _⟩ => ⟨S_, .f32⟩
  | .hbm, ⟨28, _⟩ => ⟨S1x1600, .f32⟩
  | .hbm, ⟨29, _⟩ => ⟨S1x1600, .f32⟩
  | .hbm, ⟨30, _⟩ => ⟨S1600x1, .f32⟩
  | .hbm, ⟨31, _⟩ => ⟨S1600x1600, .f32⟩
  | .hbm, ⟨32, _⟩ => ⟨S1600x1600, .f32⟩
  | .hbm, ⟨33, _⟩ => ⟨S1600x1600, .f32⟩
  | .hbm, ⟨34, _⟩ => ⟨S1600x1600, .f32⟩
  | .hbm, ⟨35, _⟩ => ⟨S1600x1600, .f32⟩
  | .hbm, ⟨36, _⟩ => ⟨S1600x51, .f32⟩
  | .hbm, ⟨37, _⟩ => ⟨S1600x51, .f32⟩
  | .hbm, ⟨38, _⟩ => ⟨S1600x1x51, .f32⟩
  | .hbm, ⟨39, _⟩ => ⟨S1x1600x51, .f32⟩
  | .hbm, ⟨40, _⟩ => ⟨S1600x1600x51, .f32⟩
  | .hbm, ⟨41, _⟩ => ⟨S1600x1600x51, .f32⟩
  | .hbm, ⟨42, _⟩ => ⟨S1600x1600x51, .f32⟩
  | .hbm, ⟨43, _⟩ => ⟨S1600x1600x51, .f32⟩
  | .hbm, ⟨44, _⟩ => ⟨S_, .f32⟩
  | .hbm, ⟨45, _⟩ => ⟨S1600x1600, .f32⟩
  | .hbm, ⟨46, _⟩ => ⟨S1600x8, .f32⟩
  | .hbm, ⟨47, _⟩ => ⟨S_, .f32⟩
  | .hbm, ⟨48, _⟩ => ⟨S1600, .f32⟩
  | .hbm, ⟨49, _⟩ => ⟨S_, .f32⟩
  | .hbm, ⟨50, _⟩ => ⟨S1600, .f32⟩
  | .hbm, ⟨51, _⟩ => ⟨S1600, .f32⟩
  | .hbm, ⟨52, _⟩ => ⟨S1600x1, .f32⟩
  | .hbm, ⟨53, _⟩ => ⟨S1600x8, .f32⟩
  | .hbm, ⟨54, _⟩ => ⟨S1600x8, .f32⟩
  | .hbm, ⟨55, _⟩ => ⟨S1600x8, .f32⟩
  | .hbm, ⟨56, _⟩ => ⟨S_, .f32⟩
  | .hbm, ⟨57, _⟩ => ⟨S1600, .f32⟩
  | .hbm, ⟨58, _⟩ => ⟨S1600x1, .f32⟩
  | .hbm, ⟨59, _⟩ => ⟨S1600x1, .f32⟩
  | .hbm, ⟨60, _⟩ => ⟨S1600x8, .f32⟩
  | .hbm, ⟨61, _⟩ => ⟨S1600x8, .f32⟩
  | .hbm, ⟨62, _⟩ => ⟨S1600x1, .f32⟩
  | .hbm, ⟨63, _⟩ => ⟨S1600, .f32⟩
  | .hbm, ⟨64, _⟩ => ⟨S1600, .f32⟩
  | .hbm, ⟨65, _⟩ => ⟨S1600x10, .f32⟩
  | .hbm, ⟨66, _⟩ => ⟨S_, .f32⟩
  | .hbm, ⟨67, _⟩ => ⟨S1600, .f32⟩
  | .hbm, ⟨68, _⟩ => ⟨S_, .f32⟩
  | .hbm, ⟨69, _⟩ => ⟨S1600, .f32⟩
  | .hbm, ⟨70, _⟩ => ⟨S1600, .f32⟩
  | .hbm, ⟨71, _⟩ => ⟨S1600x1, .f32⟩
  | .hbm, ⟨72, _⟩ => ⟨S1600x10, .f32⟩
  | .hbm, ⟨73, _⟩ => ⟨S1600x10, .f32⟩
  | .hbm, ⟨74, _⟩ => ⟨S1600x10, .f32⟩
  | .hbm, ⟨75, _⟩ => ⟨S_, .f32⟩
  | .hbm, ⟨76, _⟩ => ⟨S1600, .f32⟩
  | .hbm, ⟨77, _⟩ => ⟨S1600x1, .f32⟩
  | .hbm, ⟨78, _⟩ => ⟨S1600x1, .f32⟩
  | .hbm, ⟨79, _⟩ => ⟨S1600x10, .f32⟩
  | .hbm, ⟨80, _⟩ => ⟨S1600x10, .f32⟩
  | .hbm, ⟨81, _⟩ => ⟨S1600x1, .f32⟩
  | .hbm, ⟨82, _⟩ => ⟨S1600, .f32⟩
  | .hbm, ⟨83, _⟩ => ⟨S1600, .f32⟩
  | .hbm, ⟨84, _⟩ => ⟨S_, .f32⟩
  | .hbm, ⟨85, _⟩ => ⟨S1600x1600, .f32⟩
  | .hbm, ⟨86, _⟩ => ⟨S1600x1600, .f32⟩
  | .hbm, ⟨87, _⟩ => ⟨S_, .f32⟩
  | .hbm, ⟨88, _⟩ => ⟨S1600x1600, .f32⟩
  | .hbm, ⟨89, _⟩ => ⟨S1600x1600, .f32⟩
  | .hbm, ⟨90, _⟩ => ⟨S1600x1600, .f32⟩
  | .hbm, ⟨91, _⟩ => ⟨S_, .f32⟩
  | .hbm, ⟨92, _⟩ => ⟨S1600, .f32⟩
  | .hbm, ⟨93, _⟩ => ⟨S1600, .f32⟩
  | .hbm, ⟨94, _⟩ => ⟨S_, .f32⟩
  | .hbm, ⟨95, _⟩ => ⟨S1600, .f32⟩
  | .hbm, ⟨96, _⟩ => ⟨S1600, .f32⟩
  | .hbm, ⟨97, _⟩ => ⟨S1600, .f32⟩
  | .hbm, ⟨98, _⟩ => ⟨S1600x1, .f32⟩
  | .hbm, ⟨99, _⟩ => ⟨S1600x1600, .f32⟩
  | .hbm, ⟨100, _⟩ => ⟨S1600x1600, .f32⟩
  | .hbm, ⟨101, _⟩ => ⟨S16x100x16x100, .f32⟩
  | .hbm, ⟨102, _⟩ => ⟨S16, .i32⟩
  | .hbm, ⟨103, _⟩ => ⟨S16, .i32⟩
  | .hbm, ⟨104, _⟩ => ⟨S_, .i32⟩
  | .hbm, ⟨105, _⟩ => ⟨S16, .i32⟩
  | .hbm, ⟨106, _⟩ => ⟨S16, .i1⟩
  | .hbm, ⟨107, _⟩ => ⟨S_, .i32⟩
  | .hbm, ⟨108, _⟩ => ⟨S16, .i32⟩
  | .hbm, ⟨109, _⟩ => ⟨S16, .i32⟩
  | .hbm, ⟨110, _⟩ => ⟨S16, .i32⟩
  | .hbm, ⟨111, _⟩ => ⟨S_, .i32⟩
  | .hbm, ⟨112, _⟩ => ⟨S16, .i32⟩
  | .hbm, ⟨113, _⟩ => ⟨S16, .i1⟩
  | .hbm, ⟨114, _⟩ => ⟨S_, .i32⟩
  | .hbm, ⟨115, _⟩ => ⟨S16, .i32⟩
  | .hbm, ⟨116, _⟩ => ⟨S16, .i32⟩
  | .hbm, ⟨117, _⟩ => ⟨S16, .i32⟩
  | .hbm, ⟨118, _⟩ => ⟨S16x1, .i32⟩
  | .hbm, ⟨119, _⟩ => ⟨S16x1, .i32⟩
  | .hbm, ⟨120, _⟩ => ⟨S16x2, .i32⟩
  | .hbm, ⟨121, _⟩ => ⟨S16x100x100, .f32⟩
  | _, _ => ⟨S16x100x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_call0_cst : Ref sig .tc := ⟨.hbm, 47, rfl⟩
abbrev main_call0_v0 : Ref sig .tc := ⟨.hbm, 48, rfl⟩
abbrev main_call0_cst_0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_cst_1 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_cst : Ref sig .tc := ⟨.hbm, 66, rfl⟩
abbrev main_call1_v0 : Ref sig .tc := ⟨.hbm, 67, rfl⟩
abbrev main_call1_cst_0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_cst_1 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_3 : Ref sig .tc := ⟨.hbm, 84, rfl⟩
abbrev main_v44 : Ref sig .tc := ⟨.hbm, 85, rfl⟩
abbrev main_v45 : Ref sig .tc := ⟨.hbm, 86, rfl⟩
abbrev main_cst_4 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_5 : Ref sig .tc := ⟨.hbm, 91, rfl⟩
abbrev main_v49 : Ref sig .tc := ⟨.hbm, 92, rfl⟩
abbrev main_v50 : Ref sig .tc := ⟨.hbm, 93, rfl⟩
abbrev main_cst_6 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_c : Ref sig .tc := ⟨.hbm, 104, rfl⟩
abbrev main_v60 : Ref sig .tc := ⟨.hbm, 105, rfl⟩
abbrev main_v61 : Ref sig .tc := ⟨.hbm, 106, rfl⟩
abbrev main_c_7 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_c_8 : Ref sig .tc := ⟨.hbm, 111, rfl⟩
abbrev main_v65 : Ref sig .tc := ⟨.hbm, 112, rfl⟩
abbrev main_v66 : Ref sig .tc := ⟨.hbm, 113, rfl⟩
abbrev main_c_9 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩

abbrev nD : Nat := 1
abbrev τ : Topo := Topo.v7x

variable {F : FTy → Type} [FloatOps F]

class Facts₀ : Prop where
  bcast_S_S16x100x1 : S_.BroadcastsInDim S16x100x1 (![] : Fin 0 → Fin S16x100x1.rank)
  shapeCasts_S16x100x1_S1600 : S16x100x1.ShapeCasts S1600
  shapeCasts_S16x100_S1600 : S16x100.ShapeCasts S1600
  bcast_S1600_S1x1600_1 : S1600.BroadcastsInDim S1x1600 (![1] : Fin 1 → Fin S1x1600.rank)
  bcast_S1600_S1600x1_0 : S1600.BroadcastsInDim S1600x1 (![0] : Fin 1 → Fin S1600x1.rank)
  bcast_S1x1600_S1600x1600_0_1 : S1x1600.BroadcastsInDim S1600x1600 (![0, 1] : Fin 2 → Fin S1600x1600.rank)
  bcast_S1600x1_S1600x1600_0_1 : S1600x1.BroadcastsInDim S1600x1600 (![0, 1] : Fin 2 → Fin S1600x1600.rank)
  bcast_S_S1x1600 : S_.BroadcastsInDim S1x1600 (![] : Fin 0 → Fin S1x1600.rank)
  shapeCasts_S16x100x51_S1600x51 : S16x100x51.ShapeCasts S1600x51
  bcast_S1600x51_S1600x1x51_0_2 : S1600x51.BroadcastsInDim S1600x1x51 (![0, 2] : Fin 2 → Fin S1600x1x51.rank)
  bcast_S1600x51_S1x1600x51_1_2 : S1600x51.BroadcastsInDim S1x1600x51 (![1, 2] : Fin 2 → Fin S1x1600x51.rank)
  bcast_S1600x1x51_S1600x1600x51_0_1_2 : S1600x1x51.BroadcastsInDim S1600x1600x51 (![0, 1, 2] : Fin 3 → Fin S1600x1600x51.rank)
  bcast_S1x1600x51_S1600x1600x51_0_1_2 : S1x1600x51.BroadcastsInDim S1600x1600x51 (![0, 1, 2] : Fin 3 → Fin S1600x1600x51.rank)
  reducesTo_S1600x1600x51_S1600x1600_d2 : S1600x1600x51.ReducesTo [2] S1600x1600
  h_S_ : 0 < S_.numel
  shapeCasts_S16x100x8_S1600x8 : S16x100x8.ShapeCasts S1600x8
  reducesTo_S1600x8_S1600_d1 : S1600x8.ReducesTo [1] S1600
  bcast_S_S1600 : S_.BroadcastsInDim S1600 (![] : Fin 0 → Fin S1600.rank)
  bcast_S1600x1_S1600x8_0_1 : S1600x1.BroadcastsInDim S1600x8 (![0, 1] : Fin 2 → Fin S1600x8.rank)
  slices_S1600x8_S1600x1_0_0 : S1600x8.Slices ![0, 0] S1600x1
  shapeCasts_S1600x1_S1600 : S1600x1.ShapeCasts S1600
  shapeCasts_S16x100x10_S1600x10 : S16x100x10.ShapeCasts S1600x10
  reducesTo_S1600x10_S1600_d1 : S1600x10.ReducesTo [1] S1600
  bcast_S1600x1_S1600x10_0_1 : S1600x1.BroadcastsInDim S1600x10 (![0, 1] : Fin 2 → Fin S1600x10.rank)
  slices_S1600x10_S1600x1_0_0 : S1600x10.Slices ![0, 0] S1600x1
  bcast_S_S1600x1600 : S_.BroadcastsInDim S1600x1600 (![] : Fin 0 → Fin S1600x1600.rank)
  shapeCasts_S1600x1600_S16x100x16x100 : S1600x1600.ShapeCasts S16x100x16x100
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  gather_S16x100x16x100_S16x2_S16x100x100_12_02_n_n_02_1_11001100_wf : GatherDims.WF S16x100x16x100 S16x2 S16x100x100 [1, 2] [0, 2] [] [0, 2] [] 1 ![1, 100, 1, 100]

variable [Facts₀]

def gather_S16x100x16x100_S16x2_S16x100x100_12_02_n_n_02_1_11001100 : GatherDims S16x100x16x100 S16x2 S16x100x100 where
  offsetDims := [1, 2]
  collapsedSliceDims := [0, 2]
  operandBatchingDims := []
  startIndicesBatchingDims := []
  startIndexMap := [0, 2]
  indexVectorDim := 1
  sliceSizes := ![1, 100, 1, 100]
  wf := gather_S16x100x16x100_S16x2_S16x100x100_12_02_n_n_02_1_11001100_wf

class Facts : Prop extends Facts₀ where

variable [Facts]
-- ==== Proof.CostSpec.lean ====
/-
  The matching cost of the kernel, entry by entry, as ONE function of the six float argument arrays, on the
  extended reals.  For a batch b, a predicted query i and a target query j the entry is

    ( bce(t, log σ(x), log(1 - σ(x)))  +  Σ_{k < 51} |P(b,i,k) - T(b,j,k)| )  +  ( nls(a(b,i,·)) + nls(d(b,i,·)) )

  with x = pred_conf(b,i), t = tar_conf(b,j), σ the logistic function, bce(t, p, q) = -(t·p + (1 - t)·q) the binary
  cross-entropy of a target against two log-probabilities, P / T the predicted and target joints, and nls(v) the
  negated log-softmax of a row of class scores at its first class, -((v₀ - M) - log Σₙ exp(vₙ - M)) with M the row's
  maximum taken, as both programs take it, as the maximum with -∞ of the running maximum from -∞.
  No program is imported here: the two sides are proved equal to this function elsewhere.
-/
import Idealize.ShloMosaic.PureOps.Ideal
import Idealize.ShloMosaic.PureOps.Ideal.Laws
import Idealize.ShloMosaic.Lib.ValueIdx

noncomputable section

namespace Cert.CostSpec

open Idealize.ShloMosaic Idealize.ShloMosaic.ValueIdx

/-- The extended real the f32 word of -∞ denotes (kept as the word: both programs spell it so). -/
abbrev negInf : EReal := Ideal.ofBits .f32 0xFF800000#32

/-- Binary cross-entropy of a target `t` against the log-probabilities `p` (of the event) and `q` (of its complement). -/
def bce (t p q : EReal) : EReal := -(t * p + (1 - t) * q)

/-- The absolute difference |u - v|, as the maximum of the difference and its negation. -/
def absDiff (u v : EReal) : EReal := max (u - v) (-(u - v))

/-- The L1 distance of two rows. -/
def l1 {n : ℕ} (u v : Fin n → EReal) : EReal := ∑ k, absDiff (u k) (v k)

/-- A row's maximum as both programs take it: the maximum with -∞ of the running maximum from -∞. -/
def rowMax {n : ℕ} (v : Fin n → EReal) : EReal := max negInf ((Finset.univ : Finset (Fin n)).fold max negInf v)

/-- The negated log-softmax of the row `v` at the entry whose score is `v₀`: -((v₀ - M) - log Σₙ exp(vₙ - M)). -/
def nls {n : ℕ} (v₀ : EReal) (v : Fin n → EReal) : EReal :=
  -((v₀ - rowMax v) - Ideal.log (∑ k, Ideal.exp (v k - rowMax v)))

/-- log σ(x), the reference's way: the logarithm of 1 / (1 + e^{-x}). -/
def logSig (x : EReal) : EReal := Ideal.log (Ideal.logistic x)

/-- log (1 - σ(x)), the reference's way: log1p of -σ(x). -/
def logOneMinusSig (x : EReal) : EReal := Ideal.log1p (-(Ideal.logistic x))

/-- The cost entry at batch `b`, predicted query `i`, target query `j`. -/
def costAt (x0 : (⟨3, ![16, 100, 1]⟩ : Shape).Idx → EReal) (x1 : (⟨3, ![16, 100, 51]⟩ : Shape).Idx → EReal)
    (x2 : (⟨3, ![16, 100, 8]⟩ : Shape).Idx → EReal) (x3 : (⟨3, ![16, 100, 10]⟩ : Shape).Idx → EReal)
    (x4 : (⟨2, ![16, 100]⟩ : Shape).Idx → EReal) (x5 : (⟨3, ![16, 100, 51]⟩ : Shape).Idx → EReal)
    (b : Fin 16) (i j : Fin 100) : EReal :=
  (bce (x4 (ix2 b j)) (logSig (x0 (ix3 b i (0 : Fin 1)))) (logOneMinusSig (x0 (ix3 b i (0 : Fin 1))))
      + l1 (fun k : Fin 51 => x1 (ix3 b i k)) (fun k : Fin 51 => x5 (ix3 b j k)))
    + (nls (x2 (ix3 b i (0 : Fin 8))) (fun n : Fin 8 => x2 (ix3 b i n))
        + nls (x3 (ix3 b i (0 : Fin 10))) (fun n : Fin 10 => x3 (ix3 b i n)))

/-- The whole cost array [16, 100, 100]: the entry function read at an index's coordinates. -/
def cost (x0 : (⟨3, ![16, 100, 1]⟩ : Shape).Idx → EReal) (x1 : (⟨3, ![16, 100, 51]⟩ : Shape).Idx → EReal)
    (x2 : (⟨3, ![16, 100, 8]⟩ : Shape).Idx → EReal) (x3 : (⟨3, ![16, 100, 10]⟩ : Shape).Idx → EReal)
    (x4 : (⟨2, ![16, 100]⟩ : Shape).Idx → EReal) (x5 : (⟨3, ![16, 100, 51]⟩ : Shape).Idx → EReal) :
    (⟨3, ![16, 100, 100]⟩ : Shape).Idx → EReal :=
  fun y => costAt x0 x1 x2 x3 x4 x5 ⟨(y 0).val, (y 0).isLt⟩ ⟨(y 1).val, (y 1).isLt⟩ ⟨(y 2).val, (y 2).isLt⟩

/-- At an index given by its coordinates the array is the entry function. -/
theorem cost_ix3 (x0 : (⟨3, ![16, 100, 1]⟩ : Shape).Idx → EReal) (x1 : (⟨3, ![16, 100, 51]⟩ : Shape).Idx → EReal)
    (x2 : (⟨3, ![16, 100, 8]⟩ : Shape).Idx → EReal) (x3 : (⟨3, ![16, 100, 10]⟩ : Shape).Idx → EReal)
    (x4 : (⟨2, ![16, 100]⟩ : Shape).Idx → EReal) (x5 : (⟨3, ![16, 100, 51]⟩ : Shape).Idx → EReal)
    (b : Fin 16) (i j : Fin 100) :
    cost x0 x1 x2 x3 x4 x5 (ix3 b i j) = costAt x0 x1 x2 x3 x4 x5 b i j := rfl

end Cert.CostSpec

end
-- ==== Proof.LibLogSigmoid.lean ====
import Idealize.ShloMosaic.PureOps.Ideal
import Idealize.ShloMosaic.PureOps.Ideal.Laws

/-!
# log-sigmoid through softplus

For a real `x`, with `σ x = 1 / (1 + e^{-x})`:

* `log (σ x) = -softplus (-x)`,
* `log (1 - σ x) = -softplus x`,

where `softplus y = max y 0 + log (1 + e^{-|y|}) = log (1 + e^y)`. Both sides are computed on the
extended reals with exact operations; at a real argument every intermediate value is real, so the
identities reduce to real analysis.
-/

open Idealize.ShloMosaic

noncomputable section

namespace Cert.LogSigmoid

/-- The exponential at a real point is the real exponential. -/
theorem exp_coe (r : ℝ) : Ideal.exp (r : EReal) = ((Real.exp r : ℝ) : EReal) := rfl

/-- The logarithm at a positive real point is the real logarithm. -/
theorem log_coe_pos {r : ℝ} (h : 0 < r) : Ideal.log (r : EReal) = ((Real.log r : ℝ) : EReal) := by
  show (if r ≤ 0 then (⊥ : EReal) else ((Real.log r : ℝ) : EReal)) = _
  rw [if_neg (not_le.mpr h)]

/-- The embedding of the reals in the extended reals is monotone, so it commutes with `max`. -/
theorem coe_max (a b : ℝ) : ((max a b : ℝ) : EReal) = max (a : EReal) (b : EReal) :=
  EReal.coe_strictMono.monotone.map_max

/-- softplus in the overflow-free form max(y,0) + log(1 + e^{-|y|}), on the extended reals. -/
def softplus (y : EReal) : EReal := max y 0 + Ideal.log1p (Ideal.exp (-(max y (-y))))

/-- On the reals the overflow-free form is `log (1 + e^y)`: for `y ≥ 0`,
    `1 + e^y = e^y (1 + e^{-y})`; for `y ≤ 0`, `|y| = -y` and `max y 0 = 0`. -/
theorem real_softplus (y : ℝ) :
    max y 0 + Real.log (1 + Real.exp (-(max y (-y)))) = Real.log (1 + Real.exp y) := by
  rcases le_total 0 y with h | h
  · rw [max_eq_left h, max_eq_left (by linarith : -y ≤ y)]
    have hfac : 1 + Real.exp y = Real.exp y * (1 + Real.exp (-y)) := by
      rw [mul_add, mul_one, ← Real.exp_add, add_neg_cancel, Real.exp_zero, add_comm]
    have hpos : (0 : ℝ) < 1 + Real.exp (-y) := by positivity
    rw [hfac, Real.log_mul (Real.exp_pos y).ne' hpos.ne', Real.log_exp]
  · rw [max_eq_right h, max_eq_right (by linarith : y ≤ -y), neg_neg, zero_add]

/-- At a real point softplus is the real number `log (1 + e^y)`. -/
theorem softplus_coe (y : ℝ) : softplus (y : EReal) = ((Real.log (1 + Real.exp y) : ℝ) : EReal) := by
  have hpos : (0 : ℝ) < 1 + Real.exp (-(max y (-y))) := by positivity
  unfold softplus Ideal.log1p
  rw [← EReal.coe_neg, ← coe_max, ← EReal.coe_neg, exp_coe, ← EReal.coe_one, ← EReal.coe_add,
    log_coe_pos hpos, ← EReal.coe_zero, ← coe_max, ← EReal.coe_add, real_softplus]

/-- At a real point the logistic function is the real number `(1 + e^{-r})⁻¹`. -/
theorem logistic_coe (r : ℝ) :
    Ideal.logistic (r : EReal) = (((1 + Real.exp (-r))⁻¹ : ℝ) : EReal) := by
  have hpos : (0 : ℝ) < 1 + Real.exp (-r) := by positivity
  unfold Ideal.logistic Ideal.div
  rw [← EReal.coe_neg, exp_coe, ← EReal.coe_one, ← EReal.coe_add,
    if_neg (EReal.coe_ne_zero.mpr hpos.ne'), ← EReal.coe_inv, ← EReal.coe_mul, one_mul]

/-- `log (σ r) = -softplus (-r)`: `log ((1 + e^{-r})⁻¹) = -log (1 + e^{-r})`. -/
theorem neg_softplus_neg (r : ℝ) :
    -(softplus (-(r : EReal))) = Ideal.log (Ideal.logistic (r : EReal)) := by
  have hpos : (0 : ℝ) < (1 + Real.exp (-r))⁻¹ := by positivity
  rw [← EReal.coe_neg, softplus_coe, logistic_coe, log_coe_pos hpos, Real.log_inv, EReal.coe_neg]

/-- `log (1 - σ r) = -softplus r`: `1 - (1 + e^{-r})⁻¹ = (1 + e^r)⁻¹`. -/
theorem neg_softplus (r : ℝ) :
    -(softplus (r : EReal)) = Ideal.log1p (-(Ideal.logistic (r : EReal))) := by
  have hr : (0 : ℝ) < Real.exp r := Real.exp_pos r
  have key : (1 : ℝ) + -((1 + Real.exp (-r))⁻¹) = (1 + Real.exp r)⁻¹ := by
    rw [Real.exp_neg]
    field_simp
    ring
  have hpos : (0 : ℝ) < (1 + Real.exp r)⁻¹ := by positivity
  unfold Ideal.log1p
  rw [softplus_coe, logistic_coe, ← EReal.coe_neg, ← EReal.coe_neg, ← EReal.coe_one,
    ← EReal.coe_add, key, log_coe_pos hpos, Real.log_inv]

/-- The f32 pattern `0x3F800000` denotes `1`. -/
theorem ofBits_one_f32 : Ideal.ofBits .f32 0x3F800000#32 = 1 := by
  simp [Ideal.ofBits, Ideal.ieee, -EReal.coe_mul]; norm_num

/-- The f32 pattern `0xFF800000` denotes `-∞`. -/
theorem ofBits_neg_inf_f32 : Ideal.ofBits .f32 0xFF800000#32 = ⊥ := by
  simp [Ideal.ofBits, Ideal.ieee]

end Cert.LogSigmoid

end
-- ==== Proof.KernelForm.lean ====
/-
  The kernel's way of computing the cost entry, as a function of the six arrays its windows stage (generic in the
  number of batches B they hold, so that one formula serves a single batch read out of a block, a block of four
  batches and the whole arrays of sixteen): log σ(x) as -softplus(-x) and log(1 - σ(x)) as -softplus(x), the L1
  distance over joint coordinates that arrive TRANSPOSED and zero-padded from 51 to 56, added up in seven chunks
  of eight from zero, and the two negated log-softmax terms as in the specification.
-/
import proofs.«133896_j37967510896919_2_alg».proof.Proof.CostSpec
import proofs.«133896_j37967510896919_2_alg».proof.Proof.LibLogSigmoid

noncomputable section

namespace Cert.KernelForm

open Idealize.ShloMosaic Idealize.ShloMosaic.ValueIdx Cert.CostSpec Cert.LogSigmoid

/-- A sum over 56 coordinates taken as the kernel takes it: from zero, seven chunks of eight added one after the other. -/
def chunkSum (f : Fin 56 → EReal) : EReal :=
  ((((((0 + ∑ k : Fin 8, f ⟨0 + k.val, by omega⟩) + ∑ k : Fin 8, f ⟨8 + k.val, by omega⟩)
      + ∑ k : Fin 8, f ⟨16 + k.val, by omega⟩) + ∑ k : Fin 8, f ⟨24 + k.val, by omega⟩)
      + ∑ k : Fin 8, f ⟨32 + k.val, by omega⟩) + ∑ k : Fin 8, f ⟨40 + k.val, by omega⟩)
      + ∑ k : Fin 8, f ⟨48 + k.val, by omega⟩

/-- The kernel's cost entry at batch `b` of the staged arrays, predicted query `i`, target query `j`. -/
def kcostAt {B : ℕ} (w0 : (⟨3, ![B, 100, 1]⟩ : Shape).Idx → EReal) (w1 : (⟨3, ![B, 56, 100]⟩ : Shape).Idx → EReal)
    (w2 : (⟨3, ![B, 100, 8]⟩ : Shape).Idx → EReal) (w3 : (⟨3, ![B, 100, 10]⟩ : Shape).Idx → EReal)
    (w4 : (⟨3, ![B, 1, 100]⟩ : Shape).Idx → EReal) (w5 : (⟨3, ![B, 56, 100]⟩ : Shape).Idx → EReal)
    (b : Fin B) (i j : Fin 100) : EReal :=
  (bce (w4 (ix3 b (0 : Fin 1) j)) (-(softplus (-(w0 (ix3 b i (0 : Fin 1)))))) (-(softplus (w0 (ix3 b i (0 : Fin 1)))))
      + chunkSum (fun m : Fin 56 => absDiff (w1 (ix3 b m i)) (w5 (ix3 b m j))))
    + (nls (w2 (ix3 b i (0 : Fin 8))) (fun n : Fin 8 => w2 (ix3 b i n))
        + nls (w3 (ix3 b i (0 : Fin 10))) (fun n : Fin 10 => w3 (ix3 b i n)))

end Cert.KernelForm

end
-- ==== Proof.KernelMath.lean ====
/-
  The purely mathematical bridge between the kernel's way of computing a cost entry and the specification's:
  a sum of 56 terms taken in seven chunks of eight from zero is the plain sum; a sum over 56 coordinates whose
  last five terms vanish is the sum over the first 51; and, at a real confidence score, the kernel's
  softplus forms are the specification's log σ and log (1 - σ).  Together: the kernel's entry is the
  specification's entry.
-/
import proofs.«133896_j37967510896919_2_alg».proof.Proof.KernelForm

noncomputable section

namespace Cert.KernelMath

open Idealize.ShloMosaic Idealize.ShloMosaic.ValueIdx Cert.CostSpec Cert.KernelForm Cert.LogSigmoid

/-- A run of `n + B` consecutive terms starting at `c` is the run of the first `n` followed by the run of the
    last `B`, which starts at `d = c + n`.  Only associativity of `+` is used. -/
theorem run_split {N : ℕ} (f : Fin N → EReal) (c L n B d : ℕ) (hL : n + B = L) (hd : c + n = d) (hN : c + L ≤ N) :
    ∑ r : Fin L, f ⟨c + r.val, by omega⟩
      = (∑ r : Fin n, f ⟨c + r.val, by omega⟩) + ∑ r : Fin B, f ⟨d + r.val, by omega⟩ := by
  subst hL hd
  rw [Fin.sum_univ_add]
  refine congrArg₂ (· + ·) rfl (Finset.sum_congr rfl fun r _ => congrArg f (Fin.ext ?_))
  show c + (n + r.val) = c + n + r.val
  omega

/-- Seven chunks of eight, added one after the other from zero, make the sum over all 56 coordinates. -/
theorem chunkSum_eq (f : Fin 56 → EReal) : chunkSum f = ∑ m : Fin 56, f m := by
  unfold chunkSum
  rw [zero_add, ← run_split f 0 16 8 8 8 rfl rfl (by omega), ← run_split f 0 24 16 8 16 rfl rfl (by omega),
    ← run_split f 0 32 24 8 24 rfl rfl (by omega), ← run_split f 0 40 32 8 32 rfl rfl (by omega),
    ← run_split f 0 48 40 8 40 rfl rfl (by omega), ← run_split f 0 56 48 8 48 rfl rfl (by omega)]
  exact Finset.sum_congr rfl fun r _ => congrArg f (Fin.ext (Nat.zero_add _))

/-- A sum over 56 coordinates whose terms vanish from the 51st on is the sum of its first 51 terms. -/
theorem sum_padded (g : Fin 56 → EReal) (h : Fin 51 → EReal) (h1 : ∀ k : Fin 51, g ⟨k.val, by omega⟩ = h k)
    (h0 : ∀ m : Fin 56, 51 ≤ m.val → g m = 0) : ∑ m : Fin 56, g m = ∑ k : Fin 51, h k := by
  refine (Fin.sum_univ_add (a := 51) (b := 5) g).trans ?_
  have htail : ∑ i : Fin 5, g (Fin.natAdd 51 i) = 0 :=
    Finset.sum_eq_zero fun i _ => h0 _ (Nat.le_add_right 51 i.val)
  rw [htail, add_zero]
  exact Finset.sum_congr rfl fun k _ => h1 k

/-- |0 - 0| = 0. -/
theorem absDiff_zero : absDiff 0 0 = 0 := by
  simp [absDiff]

/-- The kernel's entry is the specification's entry: the staged joints are the joints transposed and padded by zeros
    (whose absolute differences vanish), the staged target confidences are the target confidences, and at a real
    predicted confidence the two softplus forms are log σ and log (1 - σ). -/
theorem kcostAt_eq_costAt
    (x0 : (⟨3, ![16, 100, 1]⟩ : Shape).Idx → EReal) (x1 : (⟨3, ![16, 100, 51]⟩ : Shape).Idx → EReal)
    (x2 : (⟨3, ![16, 100, 8]⟩ : Shape).Idx → EReal) (x3 : (⟨3, ![16, 100, 10]⟩ : Shape).Idx → EReal)
    (x4 : (⟨2, ![16, 100]⟩ : Shape).Idx → EReal) (x5 : (⟨3, ![16, 100, 51]⟩ : Shape).Idx → EReal)
    (w1 w5 : (⟨3, ![16, 56, 100]⟩ : Shape).Idx → EReal) (w4 : (⟨3, ![16, 1, 100]⟩ : Shape).Idx → EReal)
    (h1 : ∀ (b : Fin 16) (m : Fin 56) (i : Fin 100), w1 (ix3 b m i) = if h : m.val < 51 then x1 (ix3 b i ⟨m.val, h⟩) else 0)
    (h5 : ∀ (b : Fin 16) (m : Fin 56) (i : Fin 100), w5 (ix3 b m i) = if h : m.val < 51 then x5 (ix3 b i ⟨m.val, h⟩) else 0)
    (h4 : ∀ (b : Fin 16) (j : Fin 100), w4 (ix3 b (0 : Fin 1) j) = x4 (ix2 b j))
    (hx : ∀ y, ∃ r : ℝ, x0 y = (r : EReal))
    (b : Fin 16) (i j : Fin 100) :
    kcostAt x0 w1 x2 x3 w4 w5 b i j = costAt x0 x1 x2 x3 x4 x5 b i j := by
  obtain ⟨r, hr⟩ := hx (ix3 b i (0 : Fin 1))
  have hsum : chunkSum (fun m : Fin 56 => absDiff (w1 (ix3 b m i)) (w5 (ix3 b m j)))
      = ∑ k : Fin 51, absDiff (x1 (ix3 b i k)) (x5 (ix3 b j k)) := by
    rw [chunkSum_eq]
    refine sum_padded _ _ (fun k => ?_) (fun m hm => ?_)
    · show absDiff (w1 (ix3 b ⟨k.val, _⟩ i)) (w5 (ix3 b ⟨k.val, _⟩ j)) = _
      rw [h1, h5, dif_pos k.isLt, dif_pos k.isLt]
    · show absDiff (w1 (ix3 b m i)) (w5 (ix3 b m j)) = 0
      rw [h1, h5, dif_neg (by omega), dif_neg (by omega), absDiff_zero]
  unfold kcostAt costAt logSig logOneMinusSig l1
  rw [h4 b j, hr, neg_softplus_neg, neg_softplus, hsum]

end Cert.KernelMath

end
-- ==== Proof.HostPrefix.lean ====
/-
  What three of the arrays the kernel's windows read hold when its region is entered, read at an index.

  Before the region the program pads the two arrays of joint coordinates, [16, 100, 51], with zeros along the last
  axis to [16, 100, 56] and swaps the last two axes, [16, 56, 100]; the padding value is the integer zero converted
  to a float, which is the float zero. So entry (b, k, i) of either staged array is entry (b, i, k) of the launched
  array while k < 51, and zero from coordinate 51 on. The third array, [16, 100], only gains a unit axis in the
  middle, [16, 1, 100]: the row-major position of (b, 0, j) in the one is that of (b, j) in the other.
-/
import proofs.«133896_j37967510896919_2_alg».proof.Proof.Gen.KernelIdeal.Frame
import Idealize.ShloMosaic.Lib.ValueIdx
import Idealize.ShloMosaic.Lib.ValueLayout
import Idealize.ShloMosaic.Lib.KernelVsHost
import Idealize.ShloMosaic.Lib.Pipeline.Value
import Idealize.ShloMosaic.Lib.StableHlo.Run
import Idealize.ShloMosaic.PureOps.Ideal.Laws

set_option maxRecDepth 16384

noncomputable section

namespace Cert.HostPrefix

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (c : Dev nD)

/-! ## The zero-padded, transposed array read at an index -/

/-- The padding value: the integer zero converted, the float zero. -/
theorem padValue_eq (hu : 0 < S_.numel) :
    (sitofp (F := Ideal) .f32 (constantI S_ 32 0#32) : S_.Idx → EReal) (Shape.Idx.first hu) = 0 := by
  show ((((0#32 : BitVec 32).toInt : ℤ) : ℝ) : EReal) = 0
  simp

/-- An array [16, 100, 51] padded with `z` at the high end of its last axis to [16, 100, 56], then its last two axes
    swapped: entry (b, k, i) is entry (b, i, k) of the array while k < 51, and `z` from 51 on. -/
theorem transpose_pad_apply (x : S16x100x51.Idx → EReal) (v : S_.Idx → EReal)
    (hp : S16x100x51.Pads (![0, 0, 0] : Fin 3 → Nat) ![0, 0, 5] ![0, 0, 0] S16x100x56) (hu : 0 < S_.numel)
    (ht : S16x100x56.Transposes [0, 2, 1] S16x56x100) (b : Fin 16) (k : Fin 56) (i : Fin 100) :
    transpose S16x56x100 [0, 2, 1] (pad S16x100x56 ![0, 0, 0] ![0, 0, 5] ![0, 0, 0] x v hp hu) ht (ix3 b k i)
      = if h : k.val < 51 then x (ix3 b i ⟨k.val, h⟩) else v (Shape.Idx.first hu) := by
  refine (transpose_ix3_021_apply _ ht b k i).trans ?_
  by_cases h : k.val < 51
  · rw [dif_pos h]
    exact pad_apply_of_inside _ _ _ x v hp hu _ (ix3 b i (⟨k.val, h⟩ : Fin 51)) (fun a =>
      match a with
      | ⟨0, _⟩ => by show b.val = 0 + b.val * (0 + 1); omega
      | ⟨1, _⟩ => by show i.val = 0 + i.val * (0 + 1); omega
      | ⟨2, _⟩ => by show k.val = 0 + k.val * (0 + 1); omega)
  · rw [dif_neg h]
    exact pad_apply_of_not_inside _ _ _ x v hp hu _ (2 : Fin 3) (by
      intro hin
      have e : (k.val - 0) / (0 + 1) < 51 := hin.2.2
      rw [Nat.sub_zero, Nat.div_one] at e
      exact h e)

/-! ## The three arrays as the region finds them -/

/-- The staged first array of joint coordinates, whole: the launched one zero-padded and transposed. -/
theorem V_v1_eq : (V m c main_v1 : S16x56x100.Idx → EReal)
    = transpose S16x56x100 [0, 2, 1]
        (pad S16x100x56 ![0, 0, 0] ![0, 0, 5] ![0, 0, 0] (m ((c : Thread nD τ).loc main_arg1) : S16x100x51.Idx → EReal)
          (sitofp (F := Ideal) .f32 (constantI S_ 32 0#32)) Facts₀.pads_S16x100x51_S16x100x56_000_000_050 Facts₀.h_S_)
        Facts₀.transposes_S16x100x56_S16x56x100_0_2_1 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The staged second array of joint coordinates, whole: the launched one zero-padded and transposed. -/
theorem V_v3_eq : (V m c main_v3 : S16x56x100.Idx → EReal)
    = transpose S16x56x100 [0, 2, 1]
        (pad S16x100x56 ![0, 0, 0] ![0, 0, 5] ![0, 0, 0] (m ((c : Thread nD τ).loc main_arg5) : S16x100x51.Idx → EReal)
          (sitofp (F := Ideal) .f32 (constantI S_ 32 0#32)) Facts₀.pads_S16x100x51_S16x100x56_000_000_050 Facts₀.h_S_)
        Facts₀.transposes_S16x100x56_S16x56x100_0_2_1 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The staged array with the unit axis, whole: the launched [16, 100] array recast. -/
theorem V_v4_eq : (V m c main_v4 : S16x1x100.Idx → EReal)
    = shapeCast S16x1x100 (m ((c : Thread nD τ).loc main_arg4) : S16x100.Idx → EReal) Facts₀.shapeCasts_S16x100_S16x1x100 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- Entry (b, k, i) of the staged first array of joint coordinates: coordinate k of query i of batch b as launched,
    and zero on the five padded coordinates. -/
theorem V_v1_apply (b : Fin 16) (k : Fin 56) (i : Fin 100) :
    (V m c main_v1 : S16x56x100.Idx → EReal) (ix3 b k i)
      = (if h : k.val < 51 then (m ((c : Thread nD τ).loc main_arg1) : S16x100x51.Idx → EReal) (ix3 b i ⟨k.val, h⟩) else 0 : EReal) := by
  rw [V_v1_eq m c, transpose_pad_apply, padValue_eq]

/-- Entry (b, k, i) of the staged second array of joint coordinates: coordinate k of query i of batch b as launched,
    and zero on the five padded coordinates. -/
theorem V_v3_apply (b : Fin 16) (k : Fin 56) (i : Fin 100) :
    (V m c main_v3 : S16x56x100.Idx → EReal) (ix3 b k i)
      = (if h : k.val < 51 then (m ((c : Thread nD τ).loc main_arg5) : S16x100x51.Idx → EReal) (ix3 b i ⟨k.val, h⟩) else 0 : EReal) := by
  rw [V_v3_eq m c, transpose_pad_apply, padValue_eq]

/-- Entry (b, 0, j) of the staged array with the unit axis is entry (b, j) of the launched array: both lie at
    row-major position b · 100 + j. -/
theorem V_v4_apply (b : Fin 16) (j : Fin 100) :
    (V m c main_v4 : S16x1x100.Idx → EReal) (ix3 b (0 : Fin 1) j)
      = (m ((c : Thread nD τ).loc main_arg4) : S16x100.Idx → EReal) (ix2 b j) := by
  rw [V_v4_eq m c]
  exact shapeCast_apply _ Facts₀.shapeCasts_S16x100_S16x1x100 _ _ (by
    rw [Shape.rowMajor_val_two, Shape.rowMajor_val_three]
    show b.val * 100 + j.val = (b.val * 1 + 0) * 100 + j.val
    omega)

end Cert.HostPrefix

end
-- ==== Proof.FinitePredConf.lean ====
/-
  The precondition `finite_inputs` says that every entry of each of the six float arrays has absolute value below
  +∞. At the ideal instance (floats are extended reals) this means: every entry is a real number. Here that reading is
  derived for the first array: the precondition is a conjunction of `all`-reductions; the first conjunct is the
  reduction over the first array of the comparison max x (-x) < ⊤, which fails at both infinities.
-/
import proofs.«133896_j37967510896919_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.FinitePredConf

open Idealize.ShloMosaic
open Cert.Pre_finite_inputs

/-- The rank-0 shape has one index. -/
instance : Subsingleton S_.Idx := ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value max x (-x) is below +∞ is a real number. -/
theorem real_of_abs_lt (x : EReal) (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

theorem real_of_pre [Cert.Pre_finite_inputs.Facts]
    (a0 : FVec Ideal S16x100x1 .f32) (a1 : FVec Ideal S16x100x51 .f32) (a2 : FVec Ideal S16x100x8 .f32)
    (a3 : FVec Ideal S16x100x10 .f32) (a4 : FVec Ideal S16x100 .f32) (a5 : FVec Ideal S16x100x51 .f32)
    (a6 a7 : IVec S16x100 32)
    (h : Cert.Pre_finite_inputs.fn (F := Ideal) a0 a1 a2 a3 a4 a5 a6 a7 = fun _ => 1#1) :
    ∀ i, ∃ r : ℝ, a0 i = (r : EReal) := by
  intro i
  have e := congrFun h ValueIdx.ix0
  dsimp only [Cert.Pre_finite_inputs.fn, Cert.Pre_finite_inputs.fn_part1, andi] at e
  obtain ⟨e1, -⟩ := IntOp.andi_eq_one.1 e
  obtain ⟨e2, -⟩ := IntOp.andi_eq_one.1 e1
  obtain ⟨e3, -⟩ := IntOp.andi_eq_one.1 e2
  obtain ⟨e4, -⟩ := IntOp.andi_eq_one.1 e3
  obtain ⟨e5, -⟩ := IntOp.andi_eq_one.1 e4
  have e6 := Host.reduce_andi_all _ _ _ _ _ e5 i
  exact real_of_abs_lt (a0 i) e6

end Cert.FinitePredConf

end
-- ==== Proof.BatchFn.lean ====
/-
  One batch of the kernel's body as a composition of small whole-vector functions, at any float instance: the
  softplus chain max(y,0) + log1p(exp(-|y|)) with its never-taken guard, the binary cross-entropy matrix of a
  confidence column against a target row, one chunk of eight joint coordinates of the L1 distance and the seven
  chunks added up from zero, the negated log-softmax column of a score matrix at its first class, and their sum.
  The kernel's body runs this computation four times, once per batch of its block; each time its stored value is
  this function of the six single-batch loads.
-/
import proofs.«133896_j37967510896919_2_alg».proof.Proof.Gen.KernelIdeal.Skeleton

noncomputable section

namespace Cert.BatchFn

open Cert.KernelIdeal Cert.KernelIdeal.Gen Idealize.ShloMosaic

variable {F : FTy → Type} [FloatOps F]

/-- softplus of a column, entry by entry, as the kernel spells it: the guard compares y - 0 with itself (never unequal),
    the taken branch is max(y, 0) + log1p(exp(0 - |y - 0|)). -/
def spV (y : FVec F S100x1 .f32) : FVec F S100x1 .f32 :=
  let z : FVec F S100x1 .f32 := broadcast S100x1 (Scalar.ofBits .f32 0x00000000#32)
  select (cmpf .one (subf y z) (subf y z)) (addf y z)
    (addf (maximumf y z) (log1p (exp (subf z (absf (subf y z))))))

/-- The cross-entropy matrix: 0 - (t ⊗ log σ(x) + (1 - t) ⊗ log(1 - σ(x))), rows over the confidence column x, columns
    over the target row t, the two logarithms as 0 - softplus(0 - x) and 0 - softplus(x). -/
def cprobV (pc : Vec F S1x100x1 .f32) (tc : Vec F S1x1x100 .f32) : FVec F S100x100 .f32 :=
  let x : FVec F S100x1 .f32 := shapeCast S100x1 pc shapeCasts_S1x100x1_S100x1
  let z : FVec F S100x1 .f32 := broadcast S100x1 (Scalar.ofBits .f32 0x00000000#32)
  let lp : FVec F S100x1 .f32 := subf z (spV (subf z x))
  let lq : FVec F S100x1 .f32 := subf z (spV x)
  let t : FVec F S1x100 .f32 := shapeCast S1x100 tc shapeCasts_S1x1x100_S1x100
  subf (broadcast S100x100 (Scalar.ofBits .f32 0x00000000#32))
    (addf (mulf (broadcastTo S100x100 t broadcasts_S1x100_S100x100) (broadcastTo S100x100 lp broadcasts_S100x1_S100x100))
      (mulf (broadcastTo S100x100 (subf (broadcast S1x100 (Scalar.ofBits .f32 0x3F800000#32)) t) broadcasts_S1x100_S100x100)
        (broadcastTo S100x100 lq broadcasts_S100x1_S100x100)))

/-- One chunk of eight joint coordinates from row `o`: the sum over the chunk of |oj(k, i) - tj(k, j)| at (i, j). -/
def chunkV (oj tj : FVec F S56x100 .f32) (o : ℕ) (hs : S56x100.Slices ![o, 0] S8x100) : FVec F S100x100 .f32 :=
  multiReduction .add [0] S100x100
    (absf (subf
      (broadcastTo S8x100x100 (shapeCast S8x100x1 (extractStridedSlice S8x100 ![o, 0] oj hs) shapeCasts_S8x100_S8x100x1) broadcasts_S8x100x1_S8x100x100)
      (broadcastTo S8x100x100 (shapeCast S8x1x100 (extractStridedSlice S8x100 ![o, 0] tj hs) shapeCasts_S8x100_S8x1x100) broadcasts_S8x1x100_S8x100x100)))
    0x00000000#32 reduces_S8x100x100_S100x100 (.inl rfl) rfl

/-- The L1 distance matrix: the seven chunks added one after the other onto the zero splat. -/
def accV (ojv tjv : Vec F S1x56x100 .f32) : FVec F S100x100 .f32 :=
  let oj : FVec F S56x100 .f32 := shapeCast S56x100 ojv shapeCasts_S1x56x100_S56x100
  let tj : FVec F S56x100 .f32 := shapeCast S56x100 tjv shapeCasts_S1x56x100_S56x100
  addf (addf (addf (addf (addf (addf (addf (broadcast S100x100 (Scalar.ofBits .f32 0x00000000#32))
    (chunkV oj tj 0 slices_S56x100_o0_0_S8x100)) (chunkV oj tj 8 slices_S56x100_o8_0_S8x100))
    (chunkV oj tj 16 slices_S56x100_o16_0_S8x100)) (chunkV oj tj 24 slices_S56x100_o24_0_S8x100))
    (chunkV oj tj 32 slices_S56x100_o32_0_S8x100)) (chunkV oj tj 40 slices_S56x100_o40_0_S8x100))
    (chunkV oj tj 48 slices_S56x100_o48_0_S8x100)

/-- The negated log-softmax of the eight action scores at class 0, as a column over the queries. -/
def nlsV8 (pa : Vec F S1x100x8 .f32) : FVec F S100x1 .f32 :=
  let x : FVec F S100x8 .f32 := shapeCast S100x8 pa shapeCasts_S1x100x8_S100x8
  let mx : FVec F S100 .f32 := maximumf (broadcast S100 (Scalar.ofBits .f32 0xFF800000#32))
    (multiReduction .maximumf [1] S100 x 0xFF800000#32 reduces_S100x8_S100 (.inl rfl) rfl)
  let sh : FVec F S100x8 .f32 := subf x (broadcastTo S100x8 (shapeCast S100x1 mx shapeCasts_S100_S100x1) broadcasts_S100x1_S100x8)
  let ls : FVec F S100x1 .f32 := log (shapeCast S100x1
    (multiReduction .add [1] S100 (exp sh) 0x00000000#32 reduces_S100x8_S100 (.inl rfl) rfl) shapeCasts_S100_S100x1)
  subf (broadcast S100x1 (Scalar.ofBits .f32 0x00000000#32))
    (extractStridedSlice S100x1 ![0, 0] (subf sh (broadcastTo S100x8 ls broadcasts_S100x1_S100x8)) slices_S100x8_o0_0_S100x1)

/-- The negated log-softmax of the ten identity scores at class 0, as a column over the queries. -/
def nlsV10 (pi : Vec F S1x100x10 .f32) : FVec F S100x1 .f32 :=
  let x : FVec F S100x10 .f32 := shapeCast S100x10 pi shapeCasts_S1x100x10_S100x10
  let mx : FVec F S100 .f32 := maximumf (broadcast S100 (Scalar.ofBits .f32 0xFF800000#32))
    (multiReduction .maximumf [1] S100 x 0xFF800000#32 reduces_S100x10_S100 (.inl rfl) rfl)
  let sh : FVec F S100x10 .f32 := subf x (broadcastTo S100x10 (shapeCast S100x1 mx shapeCasts_S100_S100x1) broadcasts_S100x1_S100x10)
  let ls : FVec F S100x1 .f32 := log (shapeCast S100x1
    (multiReduction .add [1] S100 (exp sh) 0x00000000#32 reduces_S100x10_S100 (.inl rfl) rfl) shapeCasts_S100_S100x1)
  subf (broadcast S100x1 (Scalar.ofBits .f32 0x00000000#32))
    (extractStridedSlice S100x1 ![0, 0] (subf sh (broadcastTo S100x10 ls broadcasts_S100x1_S100x10)) slices_S100x10_o0_0_S100x1)

/-- The batch's stored value: (cross-entropy + L1 distance) + the row bias broadcast along the target axis. -/
def cost1 (pc : Vec F S1x100x1 .f32) (tc : Vec F S1x1x100 .f32) (ojv tjv : Vec F S1x56x100 .f32)
    (pa : Vec F S1x100x8 .f32) (pi : Vec F S1x100x10 .f32) : FVec F S1x100x100 .f32 :=
  shapeCast S1x100x100
    (addf (addf (cprobV pc tc) (accV ojv tjv)) (broadcastTo S100x100 (addf (nlsV8 pa) (nlsV10 pi)) broadcasts_S100x1_S100x100))
    shapeCasts_S100x100_S1x100x100

/-! The four stores of the body, one per batch of the block, are this function of that batch's loads. -/

theorem piece0_eq (a0 : Vec F S1x100x1 .f32) (a4 : Vec F S1x1x100 .f32) (a1 a5 : Vec F S1x56x100 .f32)
    (a2 : Vec F S1x100x8 .f32) (a3 : Vec F S1x100x10 .f32) :
    k0_pay14 (k0_pay7 (k0_pay4 a0 a4) (k0_pay5 a4) (k0_pay6 a0))
      (k0_pay12 (k0_pay8 a1) (k0_pay9 a5) (k0_pay10 a1 a5) (k0_pay11 a1 a5)) (k0_pay13 a2) a3
      = cost1 a0 a4 a1 a5 a2 a3 := rfl

theorem piece1_eq (a0 : Vec F S1x100x1 .f32) (a4 : Vec F S1x1x100 .f32) (a1 a5 : Vec F S1x56x100 .f32)
    (a2 : Vec F S1x100x8 .f32) (a3 : Vec F S1x100x10 .f32) :
    k0_pay25 (k0_pay24 (k0_pay17 (k0_pay15 a0) (k0_pay16 a0) a4) (k0_pay21 (k0_pay18 a1) (k0_pay19 a5) (k0_pay20 a1 a5))
      (k0_pay22 (k0_pay19 a5)) (k0_pay23 (k0_pay18 a1)) a2 a3)
      = cost1 a0 a4 a1 a5 a2 a3 := rfl

theorem piece2_eq (a0 : Vec F S1x100x1 .f32) (a4 : Vec F S1x1x100 .f32) (a1 a5 : Vec F S1x56x100 .f32)
    (a2 : Vec F S1x100x8 .f32) (a3 : Vec F S1x100x10 .f32) :
    k0_pay38 (k0_pay30 (k0_pay27 a0) (k0_pay28 a4) (k0_pay29 a0 a4) (Scalar.ofBits .f32 0x3F800000#32))
      (k0_pay36 (k0_pay31 a1) (k0_pay32 a5) (k0_pay33 a1 a5) (k0_pay34 a1) (k0_pay35 a5)) (k0_pay37 a2)
      (Scalar.ofBits .f32 0x00000000#32) a3
      = cost1 a0 a4 a1 a5 a2 a3 := rfl

theorem piece3_eq (a0 : Vec F S1x100x1 .f32) (a4 : Vec F S1x1x100 .f32) (a1 a5 : Vec F S1x56x100 .f32)
    (a2 : Vec F S1x100x8 .f32) (a3 : Vec F S1x100x10 .f32) :
    k0_pay1 (k0_pay52 a2 a3)
      (k0_pay53 (k0_pay45 (k0_pay39 a0) (k0_pay42 a0) (k0_pay43 a0) (k0_pay44 a0) a4) (k0_pay47 a5)
        (k0_pay50 (k0_pay46 a1) (k0_pay47 a5) (k0_pay48 (F := F)) (k0_pay49 a1 a5)) (k0_pay51 (k0_pay46 a1)))
      = cost1 a0 a4 a1 a5 a2 a3 := rfl

end Cert.BatchFn

end
-- ==== Proof.LibReduceRead.lean ====
/-
  Reductions of a vector along one axis, read at an index given by its coordinates, on the extended reals:
  a sum over the LEADING axis of a three-axis array at (p, q) is the sum over k of the entries (k, p, q); a sum and
  a maximum over the LAST axis of a matrix at p are the sum, respectively the running maximum from the accumulator's
  value, of the row p.  The inserted-coordinate index of the library's reading is identified with the coordinates.
-/
import Idealize.ShloMosaic.PureOps.Ideal.Laws
import Idealize.ShloMosaic.Lib.ValueIdx

noncomputable section

namespace Cert.ReduceRead

open Idealize.ShloMosaic Idealize.ShloMosaic.ValueIdx

/-- Inserting coordinate `k` on the leading axis of (p, q) gives (k, p, q). -/
theorem lift0_ix2 {a b c : ℕ} (h : (⟨3, ![a, b, c]⟩ : Shape).Reduces [0] ⟨2, ![b, c]⟩) (p : Fin b) (q : Fin c) (k : Fin a) :
    h.lift (ix2 p q) k = ix3 k p q := by
  funext d
  apply Fin.ext
  show h.liftVal (ix2 p q) k.val d = (ix3 k p q d).val
  unfold Shape.Reduces.liftVal
  match d with
  | ⟨0, _⟩ => rfl
  | ⟨1, _⟩ => rfl
  | ⟨2, _⟩ => rfl

/-- Inserting coordinate `k` on the last axis of the row index p gives (p, k). -/
theorem lift1_ix1 {a b : ℕ} (h : (⟨2, ![a, b]⟩ : Shape).Reduces [1] ⟨1, ![a]⟩) (p : Fin a) (k : Fin b) :
    h.lift (ix1 p) k = ix2 p k := by
  funext d
  apply Fin.ext
  show h.liftVal (ix1 p) k.val d = (ix2 p k d).val
  unfold Shape.Reduces.liftVal
  match d with
  | ⟨0, _⟩ => rfl
  | ⟨1, _⟩ => rfl

/-- A sum over the leading axis, read at (p, q). -/
theorem sum_axis0_apply {a b c : ℕ} (v : FVec Ideal ⟨3, ![a, b, c]⟩ .f32) (acc : BitVec 32)
    (h : (⟨3, ![a, b, c]⟩ : Shape).Reduces [0] ⟨2, ![b, c]⟩) (hφ : FKind.Formats .f32) (hacc : acc = FKind.add.neutral .f32 hφ)
    (p : Fin b) (q : Fin c) :
    multiReduction .add [0] ⟨2, ![b, c]⟩ v acc h hφ hacc (ix2 p q) = ∑ k : Fin a, v (ix3 k p q) := by
  refine (Ideal.multiReduction_add_single v acc h hφ hacc (ix2 p q)).trans ?_
  exact Finset.sum_congr rfl (fun k _ => congrArg v (lift0_ix2 h p q k))

/-- A sum over the last axis of a matrix, read at the row p. -/
theorem sum_axis1_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) := by
  refine (Ideal.multiReduction_add_single v acc h hφ hacc (ix1 p)).trans ?_
  exact Finset.sum_congr rfl (fun k _ => congrArg v (lift1_ix1 h p k))

/-- A maximum over the last axis of a matrix, read at the row p: the running maximum from the accumulator's value. -/
theorem max_axis1_apply {a b : ℕ} (v : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin b)).fold max (Ideal.ofBits .f32 acc) (fun k => v (ix2 p k)) := by
  refine (Ideal.multiReduction_maximumf_single v acc h hφ hacc (ix1 p)).trans ?_
  exact congrArg (fun f : Fin b → EReal => (Finset.univ : Finset (Fin b)).fold max (Ideal.ofBits .f32 acc) f)
    (funext fun k => congrArg v (lift1_ix1 h p k))

end Cert.ReduceRead

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.NlsRead.lean ====
/-
  The negated log-softmax column of the kernel, read at an entry, on the extended reals.

  For a score matrix x with rows over the queries, the kernel forms the row maxima M (each the maximum with -∞ of the
  running maximum from -∞), the shifted scores x - M, the logarithm L of the row sums of exp (x - M), then
  (x - M) - L, keeps the column of class 0 and negates it by subtracting it from zero.  Read at the query p this is
  -((x(p,0) - M(p)) - log Σₖ exp (x(p,k) - M(p))): the specification's negated log-softmax of the row p at class 0.
-/
import proofs.«133896_j37967510896919_2_alg».proof.Proof.BatchFn
import proofs.«133896_j37967510896919_2_alg».proof.Proof.CostSpec
import proofs.«133896_j37967510896919_2_alg».proof.Proof.LibReduceRead
import proofs.«133896_j37967510896919_2_alg».proof.Proof.LibColumn
import Idealize.ShloMosaic.Lib.ValueLayout
import Idealize.ShloMosaic.PureOps.Ideal.Laws

noncomputable section

namespace Cert.NlsRead

open Cert.KernelIdeal Cert.KernelIdeal.Gen Idealize.ShloMosaic Idealize.ShloMosaic.ValueIdx Cert.BatchFn Cert.CostSpec
  Cert.ReduceRead

/-- The row maximum, read at the row p: the maximum with -∞ of the running maximum of the row from -∞. -/
theorem rowMax_read {a n : ℕ} (x : FVec Ideal ⟨2, ![a, n]⟩ .f32) (hr : (⟨2, ![a, n]⟩ : Shape).Reduces [1] ⟨1, ![a]⟩)
    (hφ : FKind.Formats .f32) (hacc : (0xFF800000#32 : BitVec 32) = FKind.maximumf.neutral .f32 hφ) (p : Fin a) :
    maximumf (broadcast ⟨1, ![a]⟩ (Scalar.ofBits .f32 0xFF800000#32))
      (multiReduction .maximumf [1] ⟨1, ![a]⟩ x 0xFF800000#32 hr hφ hacc) (ix1 p)
      = rowMax (fun k : Fin n => x (ix2 p k)) :=
  congrArg (max (Ideal.ofBits .f32 0xFF800000#32)) (max_axis1_apply x _ hr hφ hacc p)

/-- A matrix minus a row statistic laid as a column and repeated along the rows, read at (p, k). -/
theorem shifted_read {a n : ℕ} (x : FVec Ideal ⟨2, ![a, n]⟩ .f32) (m : FVec Ideal ⟨1, ![a]⟩ .f32)
    (hc : (⟨1, ![a]⟩ : Shape).ShapeCasts ⟨2, ![a, 1]⟩) (hb : (⟨2, ![a, 1]⟩ : Shape).Broadcasts ⟨2, ![a, n]⟩)
    (p : Fin a) (k : Fin n) :
    subf x (broadcastTo ⟨2, ![a, n]⟩ (shapeCast ⟨2, ![a, 1]⟩ m hc) hb) (ix2 p k) = x (ix2 p k) - m (ix1 p) :=
  congrArg (fun t : EReal => x (ix2 p k) - t) (Cert.Lib.Column.broadcastTo_shapeCast_column_apply m hc hb p k)

/-- The logarithm of the row sums laid as a column, read at (p, u). -/
theorem logSum_read {a n : ℕ} (e : FVec Ideal ⟨2, ![a, n]⟩ .f32) (hr : (⟨2, ![a, n]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (p : Fin a) (u : Fin 1) :
    log (shapeCast ⟨2, ![a, 1]⟩ (multiReduction .add [1] ⟨1, ![a]⟩ e 0x00000000#32 hr hφ hacc) hc) (ix2 p u)
      = Ideal.log (∑ k : Fin n, e (ix2 p k)) :=
  congrArg Ideal.log
    ((Cert.Lib.Column.shapeCast_a_a1_apply _ hc p u).trans (sum_axis1_apply e _ hr hφ hacc p))

/-- Zero minus the column of class `z = 0` of a matrix-minus-column, read at (p, u). -/
theorem negSlice_read {a n : ℕ} (s : FVec Ideal ⟨2, ![a, n]⟩ .f32) (l : FVec Ideal ⟨2, ![a, 1]⟩ .f32)
    (hb : (⟨2, ![a, 1]⟩ : Shape).Broadcasts ⟨2, ![a, n]⟩) (hs : (⟨2, ![a, n]⟩ : Shape).Slices ![0, 0] ⟨2, ![a, 1]⟩)
    (z : Fin n) (hz : z.val = 0) (p : Fin a) (u : Fin 1) :
    subf (broadcast ⟨2, ![a, 1]⟩ (Scalar.ofBits .f32 0x00000000#32))
      (extractStridedSlice ⟨2, ![a, 1]⟩ ![0, 0] (subf s (broadcastTo ⟨2, ![a, n]⟩ l hb)) hs) (ix2 p u)
      = -(s (ix2 p z) - l (ix2 p (0 : Fin 1))) := by
  have hu : u.val = 0 := by omega
  show Ideal.ofBits .f32 0x00000000#32 - extractStridedSlice ⟨2, ![a, 1]⟩ ![0, 0] (subf s (broadcastTo ⟨2, ![a, n]⟩ l hb)) hs (ix2 p u) = _
  rw [Ideal.ofBits_zero_f32, zero_sub, slice2_axis1_apply 0 _ hs p u z (by omega)]
  show -(s (ix2 p z) - broadcastTo ⟨2, ![a, n]⟩ l hb (ix2 p z)) = _
  rw [Cert.Lib.Column.broadcastTo_a1_ab_apply]

/-- The whole column, for a matrix of any extents: at the query p it is the negated log-softmax of the row p at the
    class `z = 0`. -/
theorem nlsCol_read {a n : ℕ} (x : FVec Ideal ⟨2, ![a, n]⟩ .f32) (hr : (⟨2, ![a, n]⟩ : Shape).Reduces [1] ⟨1, ![a]⟩)
    (hφm : FKind.Formats .f32) (haccm : (0xFF800000#32 : BitVec 32) = FKind.maximumf.neutral .f32 hφm)
    (hφa : FKind.Formats .f32) (hacca : (0x00000000#32 : BitVec 32) = FKind.add.neutral .f32 hφa)
    (hc : (⟨1, ![a]⟩ : Shape).ShapeCasts ⟨2, ![a, 1]⟩) (hb : (⟨2, ![a, 1]⟩ : Shape).Broadcasts ⟨2, ![a, n]⟩)
    (hs : (⟨2, ![a, n]⟩ : Shape).Slices ![0, 0] ⟨2, ![a, 1]⟩) (z : Fin n) (hz : z.val = 0) (p : Fin a) (u : Fin 1) :
    subf (broadcast ⟨2, ![a, 1]⟩ (Scalar.ofBits .f32 0x00000000#32))
      (extractStridedSlice ⟨2, ![a, 1]⟩ ![0, 0]
        (subf
          (subf x (broadcastTo ⟨2, ![a, n]⟩ (shapeCast ⟨2, ![a, 1]⟩
            (maximumf (broadcast ⟨1, ![a]⟩ (Scalar.ofBits .f32 0xFF800000#32))
              (multiReduction .maximumf [1] ⟨1, ![a]⟩ x 0xFF800000#32 hr hφm haccm)) hc) hb))
          (broadcastTo ⟨2, ![a, n]⟩
            (log (shapeCast ⟨2, ![a, 1]⟩
              (multiReduction .add [1] ⟨1, ![a]⟩
                (exp (subf x (broadcastTo ⟨2, ![a, n]⟩ (shapeCast ⟨2, ![a, 1]⟩
                  (maximumf (broadcast ⟨1, ![a]⟩ (Scalar.ofBits .f32 0xFF800000#32))
                    (multiReduction .maximumf [1] ⟨1, ![a]⟩ x 0xFF800000#32 hr hφm haccm)) hc) hb)))
                0x00000000#32 hr hφa hacca) hc)) hb)) hs) (ix2 p u)
      = nls (x (ix2 p z)) (fun k : Fin n => x (ix2 p k)) := by
  refine (negSlice_read _ _ hb hs z hz p u).trans ?_
  rw [shifted_read, logSum_read, rowMax_read]
  unfold nls
  refine congrArg (fun t : EReal => -((x (ix2 p z) - rowMax (fun k : Fin n => x (ix2 p k))) - Ideal.log t))
    (Finset.sum_congr rfl fun k _ => ?_)
  show Ideal.exp (subf x _ (ix2 p k)) = _
  rw [shifted_read, rowMax_read]

/-- The negated log-softmax column of the eight action scores, read at the query p. -/
theorem nlsV8_apply (pa : Vec Ideal S1x100x8 .f32) (p : Fin 100) (u : Fin 1) :
    nlsV8 pa (ix2 p u) = nls (pa (ix3 (0 : Fin 1) p (0 : Fin 8))) (fun n : Fin 8 => pa (ix3 (0 : Fin 1) p n)) := by
  refine (nlsCol_read (shapeCast S100x8 pa shapeCasts_S1x100x8_S100x8) reduces_S100x8_S100 (.inl rfl) rfl (.inl rfl) rfl
    shapeCasts_S100_S100x1 broadcasts_S100x1_S100x8 slices_S100x8_o0_0_S100x1 (0 : Fin 8) rfl p u).trans ?_
  simp only [shapeCast_1ab_ab_apply]

/-- The negated log-softmax column of the ten identity scores, read at the query p. -/
theorem nlsV10_apply (pi : Vec Ideal S1x100x10 .f32) (p : Fin 100) (u : Fin 1) :
    nlsV10 pi (ix2 p u) = nls (pi (ix3 (0 : Fin 1) p (0 : Fin 10))) (fun n : Fin 10 => pi (ix3 (0 : Fin 1) p n)) := by
  refine (nlsCol_read (shapeCast S100x10 pi shapeCasts_S1x100x10_S100x10) reduces_S100x10_S100 (.inl rfl) rfl (.inl rfl) rfl
    shapeCasts_S100_S100x1 broadcasts_S100x1_S100x10 slices_S100x10_o0_0_S100x1 (0 : Fin 10) rfl p u).trans ?_
  simp only [shapeCast_1ab_ab_apply]

end Cert.NlsRead

end
-- ==== Proof.LibKeepAxis.lean ====
/-
  Layout operations read at an index given by coordinates, for the forms a "keep the axis" reduction and a
  per-head broadcast along the lanes meet:

  • a matrix [a, c] viewed [a, 1, c] (a unit axis put in the middle), and that view broadcast to [a, b, c]:
    at (i, j, k) both read the matrix at (i, k) — what subtracting a row-wise maximum, or dividing by a row-wise
    sum taken over the middle axis, does;
  • an array [a, b, c] viewed [a, b, c, 1] (a trailing unit axis), and that view broadcast to [a, b, c, d]:
    at (i, j, k, l) both read the array at (i, j, k);
  • an array [a, b, c, d] viewed [a, b, e] with e = c * d (the last two axes merged): at (i, j, m) with
    m = d * k + l it reads the array at (i, j, k, l).

  Each is the library's general lemma for the operation (a shape cast reads the operand at the same row-major
  position; a broadcast reads it at the trailing coordinates, 0 on the operand's unit axes) with both indices
  written by coordinates and the arithmetic done.
-/
import Idealize.ShloMosaic.Lib.ValueIdx
import Idealize.ShloMosaic.Lib.Pipeline.Value

namespace Idealize.ShloMosaic.ValueIdx

open Idealize.ShloMosaic

variable {α : Type}

/-- A matrix [a, c] cast to [a, 1, c] reads, at (i, u, k), the matrix at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An array [a, 1, c] broadcast to [a, b, c] reads, at (i, j, k), the operand at (i, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ (fun ax => by
    match ax with
    | ⟨0, _⟩ =>
      show i.val = if a = 1 then 0 else i.val
      split
      · have := i.isLt; omega
      · rfl
    | ⟨1, _⟩ => rfl
    | ⟨2, _⟩ =>
      show k.val = if c = 1 then 0 else k.val
      split
      · have := k.isLt; omega
      · rfl)

/-- An array [a, b, c] cast to [a, b, c, 1] reads, at (i, j, k, u), the array at (i, j, k). -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- An array [a, b, c, 1] broadcast to [a, b, c, d] reads, at (i, j, k, l), the operand at (i, j, k, 0). -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) :=
  broadcastTo_apply x h _ _ (fun ax => by
    match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ =>
      show k.val = if c = 1 then 0 else k.val
      split
      · have := k.isLt; omega
      · rfl
    | ⟨3, _⟩ => rfl)

/-- An array [a, b, c, d] cast to [a, b, e] with `e = c * d` reads, at (i, j, m) with `m = d * k + l`, the array
    at (i, j, k, l): the last two axes laid end to end. -/
theorem shapeCast_abcd_abe_apply {a b c d e : ℕ} (x : (⟨4, ![a, b, c, d]⟩ : Shape).Idx → α)
    (h : (⟨4, ![a, b, c, d]⟩ : Shape).ShapeCasts ⟨3, ![a, b, e]⟩) (hcd : c * d = e)
    (i : Fin a) (j : Fin b) (k : Fin c) (l : Fin d) (m : Fin e) (hm : m.val = d * k.val + l.val) :
    shapeCast ⟨3, ![a, b, e]⟩ x h (ix3 i j m) = x (ix4 i j k l) :=
  shapeCast_apply x h _ _ (by
    rw [Shape.rowMajor_val_four, Shape.rowMajor_val_three]
    show ((i.val * b + j.val) * c + k.val) * d + l.val = (i.val * b + j.val) * e + m.val
    rw [hm, ← hcd]
    ring)

end Idealize.ShloMosaic.ValueIdx
-- ==== Proof.LibTrailingAxis.lean ====
/-
  Layout operations read at an index given by coordinates, for the forms a per-row statistic broadcast along a
  trailing axis meets, and for a trailing axis split in two:

  • a matrix [a, b] viewed [a, b, 1] (a unit axis put last), and that view broadcast to [a, b, c]: at (i, j, k)
    both read the matrix at (i, j) — what multiplying every entry of row (i, j) by one number per row does;
  • an array [a, b, e] viewed [a, b, c, d] with c * d = e (the last axis split in two): at (i, j, k, l) it reads
    the array at (i, j, m) with m = d * k + l, the row-major number of (k, l).

  Each is the general lemma for the operation (a shape cast reads the operand at the same row-major position; a
  broadcast reads it at the result's coordinates, 0 on the operand's unit axes) with both indices written by
  coordinates and the arithmetic done.
-/
import Idealize.ShloMosaic.Lib.ValueIdx
import Idealize.ShloMosaic.Lib.Pipeline.Value

namespace Cert.Lib.TrailingAxis

open Idealize.ShloMosaic Idealize.ShloMosaic.ValueIdx

variable {α : Type}

/-- A matrix [a, b] cast to [a, b, 1] reads, at (i, j, u), the matrix at (i, j): both indices sit at row-major
    position i * b + j. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An array [a, b, 1] broadcast to [a, b, c] reads, at (i, j, k), the operand at (i, j, 0): the unit axis is read
    at 0, the other two at the result's own coordinates. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (fun ax => by
    match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => rfl)

/-- The two steps together: a matrix given a trailing unit axis and repeated along it reads, at (i, j, k), the
    matrix at (i, j). -/
theorem broadcastTo_shapeCast_trailing_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) := by
  rw [broadcastTo_ab1_abc_apply, shapeCast_ab_ab1_apply]

/-- An array [a, b, e] cast to [a, b, c, d] with `c * d = e` reads, at (i, j, k, l), the array at (i, j, m) with
    `m = d * k + l`: the last axis cut into c runs of d. -/
theorem shapeCast_abe_abcd_apply {a b c d e : ℕ} (x : (⟨3, ![a, b, e]⟩ : Shape).Idx → α)
    (h : (⟨3, ![a, b, e]⟩ : Shape).ShapeCasts ⟨4, ![a, b, c, d]⟩) (hcd : c * d = e)
    (i : Fin a) (j : Fin b) (k : Fin c) (l : Fin d) (m : Fin e) (hm : m.val = d * k.val + l.val) :
    shapeCast ⟨4, ![a, b, c, d]⟩ x h (ix4 i j k l) = x (ix3 i j m) :=
  shapeCast_apply x h _ _ (by
    rw [Shape.rowMajor_val_three, Shape.rowMajor_val_four]
    show (i.val * b + j.val) * e + m.val = ((i.val * b + j.val) * c + k.val) * d + l.val
    rw [hm, ← hcd]
    ring)

end Cert.Lib.TrailingAxis
-- ==== Proof.BatchRead.lean ====
/-
  The batch computation read at an index, on the extended reals: the softplus column, the cross-entropy matrix
  0 - (t·(0 - softplus(0 - x)) + (1 - t)·(0 - softplus x)) = bce(t, -softplus(-x), -softplus x), one chunk of the L1
  distance as a sum over its eight coordinates (the two operands re-laid along the query axes by a unit axis and a
  broadcast), the seven chunks from zero, and the batch's stored value as the kernel's cost entry of its six loads.
-/
import proofs.«133896_j37967510896919_2_alg».proof.Proof.BatchFn
import proofs.«133896_j37967510896919_2_alg».proof.Proof.KernelForm
import proofs.«133896_j37967510896919_2_alg».proof.Proof.LibReduceRead
import proofs.«133896_j37967510896919_2_alg».proof.Proof.NlsRead
import proofs.«133896_j37967510896919_2_alg».proof.Proof.LibColumn
import proofs.«133896_j37967510896919_2_alg».proof.Proof.LibKeepAxis
import proofs.«133896_j37967510896919_2_alg».proof.Proof.LibTrailingAxis
import Idealize.ShloMosaic.Lib.ValueLayout

noncomputable section

namespace Cert.BatchRead

open Cert.KernelIdeal Cert.KernelIdeal.Gen Idealize.ShloMosaic Idealize.ShloMosaic.ValueIdx
open Cert.BatchFn Cert.CostSpec Cert.KernelForm Cert.LogSigmoid Cert.ReduceRead Cert.NlsRead

/-- Comparing an extended real with itself for "ordered and unequal" answers no. -/
theorem cmp_one_self (a : EReal) : Ideal.cmp .one a a = 0#1 := by
  simp [Ideal.cmp]

/-- The softplus column at an entry is softplus of the entry: the guard is never taken, y - 0 = y, 0 - m = -m. -/
theorem spV_apply (y : FVec Ideal S100x1 .f32) (i : S100x1.Idx) : spV y i = softplus (y i) := by
  show Scalar.select (Ideal.cmp .one (y i - Ideal.ofBits .f32 0x00000000#32) (y i - Ideal.ofBits .f32 0x00000000#32))
      (y i + Ideal.ofBits .f32 0x00000000#32)
      (max (y i) (Ideal.ofBits .f32 0x00000000#32)
        + Ideal.log1p (Ideal.exp (Ideal.ofBits .f32 0x00000000#32
            - max (y i - Ideal.ofBits .f32 0x00000000#32) (-(y i - Ideal.ofBits .f32 0x00000000#32))))) = _
  rw [cmp_one_self, select_zero, Ideal.ofBits_zero_f32, sub_zero, zero_sub]
  rfl

/-- The cross-entropy matrix at (p, q). -/
theorem cprobV_apply (pc : Vec Ideal S1x100x1 .f32) (tc : Vec Ideal S1x1x100 .f32) (p q : Fin 100) :
    cprobV pc tc (ix2 p q)
      = bce (tc (ix3 (0 : Fin 1) (0 : Fin 1) q)) (-(softplus (-(pc (ix3 (0 : Fin 1) p (0 : Fin 1))))))
          (-(softplus (pc (ix3 (0 : Fin 1) p (0 : Fin 1))))) := by
  unfold cprobV
  simp only [subf_apply, addf_apply, mulf_apply, broadcast_apply, broadcastTo_1b_ab_apply,
    Cert.Lib.Column.broadcastTo_a1_ab_apply, shapeCast_1ab_ab_apply, spV_apply]
  simp only [Ideal.ofBits_def, Ideal.ofBits_zero_f32, ofBits_one_f32, zero_sub]
  rfl

/-- One chunk of the L1 distance at (p, q): the sum over its eight coordinates. -/
theorem chunkV_apply (oj tj : FVec Ideal S56x100 .f32) (o : ℕ) (hs : S56x100.Slices ![o, 0] S8x100) (ho : o + 8 ≤ 56)
    (p q : Fin 100) :
    chunkV oj tj o hs (ix2 p q)
      = ∑ k : Fin 8, absDiff (oj (ix2 (⟨o + k.val, by omega⟩ : Fin 56) p)) (tj (ix2 (⟨o + k.val, by omega⟩ : Fin 56) q)) := by
  unfold chunkV
  refine (sum_axis0_apply _ _ _ _ _ p q).trans ?_
  refine Finset.sum_congr rfl (fun k _ => ?_)
  have hA : broadcastTo S8x100x100 (shapeCast S8x100x1 (extractStridedSlice S8x100 ![o, 0] oj hs) shapeCasts_S8x100_S8x100x1)
      broadcasts_S8x100x1_S8x100x100 (ix3 k p q) = oj (ix2 (⟨o + k.val, by omega⟩ : Fin 56) p) := by
    rw [Cert.Lib.TrailingAxis.broadcastTo_ab1_abc_apply, Cert.Lib.TrailingAxis.shapeCast_ab_ab1_apply,
      slice2_axis0_apply o oj hs k p (⟨o + k.val, by omega⟩ : Fin 56) rfl]
  have hB : broadcastTo S8x100x100 (shapeCast S8x1x100 (extractStridedSlice S8x100 ![o, 0] tj hs) shapeCasts_S8x100_S8x1x100)
      broadcasts_S8x1x100_S8x100x100 (ix3 k p q) = tj (ix2 (⟨o + k.val, by omega⟩ : Fin 56) q) := by
    rw [broadcastTo_a1c_abc_apply, shapeCast_ac_a1c_apply,
      slice2_axis0_apply o tj hs k q (⟨o + k.val, by omega⟩ : Fin 56) rfl]
  unfold absDiff
  rw [← hA, ← hB]
  rfl

/-- The L1 distance matrix at (p, q): the seven chunks from zero over the transposed, padded joint rows. -/
theorem accV_apply (ojv tjv : Vec Ideal S1x56x100 .f32) (p q : Fin 100) :
    accV ojv tjv (ix2 p q)
      = chunkSum (fun m : Fin 56 => absDiff (ojv (ix3 (0 : Fin 1) m p)) (tjv (ix3 (0 : Fin 1) m q))) := by
  unfold accV chunkSum
  simp only [addf_apply, broadcast_apply]
  rw [chunkV_apply _ _ 0 _ (by omega), chunkV_apply _ _ 8 _ (by omega), chunkV_apply _ _ 16 _ (by omega),
    chunkV_apply _ _ 24 _ (by omega), chunkV_apply _ _ 32 _ (by omega), chunkV_apply _ _ 40 _ (by omega),
    chunkV_apply _ _ 48 _ (by omega)]
  simp only [shapeCast_1ab_ab_apply, Ideal.ofBits_def, Ideal.ofBits_zero_f32]

/-- The batch's stored value at (u, p, q) is the kernel's cost entry of the six single-batch loads. -/
theorem cost1_apply (pc : Vec Ideal S1x100x1 .f32) (tc : Vec Ideal S1x1x100 .f32) (ojv tjv : Vec Ideal S1x56x100 .f32)
    (pa : Vec Ideal S1x100x8 .f32) (pi : Vec Ideal S1x100x10 .f32) (u : Fin 1) (p q : Fin 100) :
    cost1 pc tc ojv tjv pa pi (ix3 u p q) = kcostAt (B := 1) pc ojv pa pi tc tjv (0 : Fin 1) p q := by
  unfold cost1 kcostAt
  rw [shapeCast_ab_1ab_apply]
  simp only [addf_apply, Cert.Lib.Column.broadcastTo_a1_ab_apply, cprobV_apply, accV_apply, nlsV8_apply, nlsV10_apply]

end Cert.BatchRead

end
-- ==== Proof.KernelValue.lean ====
/-
  The kernel's output array after its run, as ONE function of the six arrays its region finds.

  The region visits four grid points; at point t each of the seven windows holds block t of its array, four batches
  of the sixteen. The body stores the output block in four pieces, one per batch of the block, piece k being one
  batch's cost of the six loads at batch k; so the block it leaves is the kernel's formula over the six input blocks,
  batch by batch. The formula at a batch reads its arrays at that batch only, and batch k of block t of an array is
  batch 4 t + k of the array: what point t writes back is block t of the formula over the whole arrays. The four
  blocks tile the sixteen batches (batch b lies in block b / 4), so the array ends holding that formula everywhere.
-/
import proofs.«133896_j37967510896919_2_alg».proof.Proof.Gen.KernelIdeal.Value
import proofs.«133896_j37967510896919_2_alg».proof.Proof.BatchFn
import proofs.«133896_j37967510896919_2_alg».proof.Proof.KernelForm
import proofs.«133896_j37967510896919_2_alg».proof.Proof.BatchRead
import Idealize.ShloMosaic.Lib.Pipeline.Value
import Idealize.ShloMosaic.Lib.ValueIdx

set_option maxRecDepth 16384

noncomputable section

namespace Cert.KernelValue

open Cert.KernelIdeal Cert.KernelIdeal.Gen Idealize.ShloMosaic Idealize.ShloMosaic.ValueIdx Idealize.ShloMosaic.TcCoe
open Idealize.SL.Sem
open Idealize.ShloMosaic.Pipeline (Dat)
open Cert.KernelForm (kcostAt)

/-! ## The formula reads its arrays at one batch only -/

/-- The kernel's formula at batch `b` of six arrays reads them at batch `b` only: two families of arrays of any
    batch extents that agree, batch `b` of the one with batch `b'` of the other, give the same entry. -/
theorem kcostAt_congr {B B' : ℕ}
    (w0 : (⟨3, ![B, 100, 1]⟩ : Shape).Idx → EReal) (w1 : (⟨3, ![B, 56, 100]⟩ : Shape).Idx → EReal)
    (w2 : (⟨3, ![B, 100, 8]⟩ : Shape).Idx → EReal) (w3 : (⟨3, ![B, 100, 10]⟩ : Shape).Idx → EReal)
    (w4 : (⟨3, ![B, 1, 100]⟩ : Shape).Idx → EReal) (w5 : (⟨3, ![B, 56, 100]⟩ : Shape).Idx → EReal)
    (v0 : (⟨3, ![B', 100, 1]⟩ : Shape).Idx → EReal) (v1 : (⟨3, ![B', 56, 100]⟩ : Shape).Idx → EReal)
    (v2 : (⟨3, ![B', 100, 8]⟩ : Shape).Idx → EReal) (v3 : (⟨3, ![B', 100, 10]⟩ : Shape).Idx → EReal)
    (v4 : (⟨3, ![B', 1, 100]⟩ : Shape).Idx → EReal) (v5 : (⟨3, ![B', 56, 100]⟩ : Shape).Idx → EReal)
    (b : Fin B) (b' : Fin B')
    (h0 : ∀ (i : Fin 100) (n : Fin 1), w0 (ix3 b i n) = v0 (ix3 b' i n))
    (h1 : ∀ (k : Fin 56) (i : Fin 100), w1 (ix3 b k i) = v1 (ix3 b' k i))
    (h2 : ∀ (i : Fin 100) (n : Fin 8), w2 (ix3 b i n) = v2 (ix3 b' i n))
    (h3 : ∀ (i : Fin 100) (n : Fin 10), w3 (ix3 b i n) = v3 (ix3 b' i n))
    (h4 : ∀ (u : Fin 1) (j : Fin 100), w4 (ix3 b u j) = v4 (ix3 b' u j))
    (h5 : ∀ (k : Fin 56) (j : Fin 100), w5 (ix3 b k j) = v5 (ix3 b' k j))
    (i j : Fin 100) :
    kcostAt w0 w1 w2 w3 w4 w5 b i j = kcostAt v0 v1 v2 v3 v4 v5 b' i j := by
  unfold kcostAt
  simp only [h0, h1, h2, h3, h4, h5]

/-! ## One batch of a block read through its rectangle -/

/-- A load of batch `k` of a stack of matrices, through the unit-stride rectangle at offset (k, 0, 0) of one matrix's
    extents, reads at (0, p, q) the stack's entry (k, p, q). -/
theorem ld_batch {n a b : ℕ} (x : Vec Ideal (⟨3, ![n, a, b]⟩ : Shape) .f32) (k : ℕ) (hk : k < n)
    (inb : ∀ d, (![k, 0, 0] : Fin 3 → Nat) d + (⟨3, ![1, a, b]⟩ : Shape).size d ≤ (⟨3, ![n, a, b]⟩ : Shape).size d)
    (u : Fin 1) (p : Fin a) (q : Fin b) :
    View.ld x (Rect.unit (s := ⟨3, ![n, a, b]⟩) ![k, 0, 0] (⟨3, ![1, a, b]⟩ : Shape).size inb) (ix3 u p q)
      = x (ix3 ⟨k, hk⟩ p q) := by
  show x ((Rect.unit (s := ⟨3, ![n, a, b]⟩) ![k, 0, 0] (⟨3, ![1, a, b]⟩ : Shape).size inb).idx (ix3 u p q)) = _
  refine congrArg x (funext fun d => Fin.ext ?_)
  match d with
  | ⟨0, _⟩ => show k + 1 * u.val = k; omega
  | ⟨1, _⟩ => show 0 + 1 * p.val = p.val; omega
  | ⟨2, _⟩ => show 0 + 1 * q.val = q.val; omega

/-! ## The block the body leaves, as one function of the six input blocks -/

/-- The kernel's formula over blocks of four batches, at an index of the output block. -/
def Gblk (x0 : Vec Ideal S4x100x1 .f32) (x1 : Vec Ideal S4x56x100 .f32) (x2 : Vec Ideal S4x100x8 .f32)
    (x3 : Vec Ideal S4x100x10 .f32) (x4 : Vec Ideal S4x1x100 .f32) (x5 : Vec Ideal S4x56x100 .f32) :
    S4x100x100.Idx → EReal :=
  fun y => kcostAt (B := 4) x0 x1 x2 x3 x4 x5 ⟨(y 0).val, (y 0).isLt⟩ ⟨(y 1).val, (y 1).isLt⟩ ⟨(y 2).val, (y 2).isLt⟩

theorem Gblk_of (x0 : Vec Ideal S4x100x1 .f32) (x1 : Vec Ideal S4x56x100 .f32) (x2 : Vec Ideal S4x100x8 .f32)
    (x3 : Vec Ideal S4x100x10 .f32) (x4 : Vec Ideal S4x1x100 .f32) (x5 : Vec Ideal S4x56x100 .f32)
    (y : S4x100x100.Idx) (b : Fin 4) (i j : Fin 100) (h0 : (y 0).val = b.val) (h1 : (y 1).val = i.val) (h2 : (y 2).val = j.val) :
    Gblk x0 x1 x2 x3 x4 x5 y = kcostAt (B := 4) x0 x1 x2 x3 x4 x5 b i j := by
  have e0 : (⟨(y 0).val, (y 0).isLt⟩ : Fin 4) = b := Fin.ext h0
  have e1 : (⟨(y 1).val, (y 1).isLt⟩ : Fin 100) = i := Fin.ext h1
  have e2 : (⟨(y 2).val, (y 2).isLt⟩ : Fin 100) = j := Fin.ext h2
  unfold Gblk
  rw [e0, e1, e2]

/-- The store of batch `k` of the block: its payload, one batch's cost of the six loads at batch `k`, is the block
    function at the store's place. -/
theorem piece_apply (x0 : Vec Ideal S4x100x1 .f32) (x1 : Vec Ideal S4x56x100 .f32) (x2 : Vec Ideal S4x100x8 .f32)
    (x3 : Vec Ideal S4x100x10 .f32) (x4 : Vec Ideal S4x1x100 .f32) (x5 : Vec Ideal S4x56x100 .f32) (k : ℕ) (hk : k < 4)
    (inb0 : ∀ d, (![k, 0, 0] : Fin 3 → Nat) d + S1x100x1.size d ≤ S4x100x1.size d)
    (inb4 : ∀ d, (![k, 0, 0] : Fin 3 → Nat) d + S1x1x100.size d ≤ S4x1x100.size d)
    (inb1 : ∀ d, (![k, 0, 0] : Fin 3 → Nat) d + S1x56x100.size d ≤ S4x56x100.size d)
    (inb2 : ∀ d, (![k, 0, 0] : Fin 3 → Nat) d + S1x100x8.size d ≤ S4x100x8.size d)
    (inb3 : ∀ d, (![k, 0, 0] : Fin 3 → Nat) d + S1x100x10.size d ≤ S4x100x10.size d)
    (inb6 : ∀ d, (![k, 0, 0] : Fin 3 → Nat) d + S1x100x100.size d ≤ S4x100x100.size d)
    (x : S1x100x100.Idx) :
    Cert.BatchFn.cost1 (View.ld x0 (Rect.unit (s := S4x100x1) ![k, 0, 0] S1x100x1.size inb0))
        (View.ld x4 (Rect.unit (s := S4x1x100) ![k, 0, 0] S1x1x100.size inb4))
        (View.ld x1 (Rect.unit (s := S4x56x100) ![k, 0, 0] S1x56x100.size inb1))
        (View.ld x5 (Rect.unit (s := S4x56x100) ![k, 0, 0] S1x56x100.size inb1))
        (View.ld x2 (Rect.unit (s := S4x100x8) ![k, 0, 0] S1x100x8.size inb2))
        (View.ld x3 (Rect.unit (s := S4x100x10) ![k, 0, 0] S1x100x10.size inb3)) x
      = Gblk x0 x1 x2 x3 x4 x5 ((Rect.unit (s := S4x100x100) ![k, 0, 0] S1x100x100.size inb6).emb x) := by
  obtain ⟨u, p, q, rfl⟩ : ∃ (u : Fin 1) (p q : Fin 100), x = ix3 u p q := ⟨x 0, x 1, x 2, eq_ix3 x⟩
  refine (Cert.BatchRead.cost1_apply _ _ _ _ _ _ u p q).trans ?_
  refine (kcostAt_congr _ _ _ _ _ _ x0 x1 x2 x3 x4 x5 (0 : Fin 1) (⟨k, hk⟩ : Fin 4)
    (fun i n => ld_batch x0 k hk inb0 0 i n) (fun m i => ld_batch x1 k hk inb1 0 m i)
    (fun i n => ld_batch x2 k hk inb2 0 i n) (fun i n => ld_batch x3 k hk inb3 0 i n)
    (fun v j => ld_batch x4 k hk inb4 0 v j) (fun m j => ld_batch x5 k hk inb1 0 m j) p q).trans ?_
  refine (Gblk_of x0 x1 x2 x3 x4 x5 _ ⟨k, hk⟩ p q ?_ ?_ ?_).symm
  · show k + 1 * u.val = k; omega
  · show 0 + 1 * p.val = p.val; omega
  · show 0 + 1 * q.val = q.val; omega

/-- What the body leaves in the output block: the four stores, one per batch, are the four batches of the block
    function, and they tile the block. -/
theorem out_eq (x0 : Vec Ideal S4x100x1 .f32) (x1 : Vec Ideal S4x56x100 .f32) (x2 : Vec Ideal S4x100x8 .f32)
    (x3 : Vec Ideal S4x100x10 .f32) (x4 : Vec Ideal S4x1x100 .f32) (x5 : Vec Ideal S4x56x100 .f32) :
    out0_6 x0 x1 x2 x3 x4 x5 = Gblk x0 x1 x2 x3 x4 x5 := by
  funext y
  unfold out0_6
  refine View.canon_apply_of_pieces (Val := Elt Ideal) (e := .f32) (Gblk x0 x1 x2 x3 x4 x5) _ (fun p hp => ?_) y (cover0_6 _ _ _ _ y)
  simp only [List.mem_cons, List.not_mem_nil, or_false] at hp
  rcases hp with rfl | rfl | rfl | rfl
  · intro x
    exact (congrFun (Cert.BatchFn.piece3_eq _ _ _ _ _ _) x).trans
      (piece_apply x0 x1 x2 x3 x4 x5 3 (by decide) Facts₀.inb_S4x100x1_S1x100x1_3_0_0 Facts₀.inb_S4x1x100_S1x1x100_3_0_0
        Facts₀.inb_S4x56x100_S1x56x100_3_0_0 Facts₀.inb_S4x100x8_S1x100x8_3_0_0 Facts₀.inb_S4x100x10_S1x100x10_3_0_0
        Facts₀.inb_S4x100x100_S1x100x100_3_0_0 x)
  · intro x
    exact (congrFun (Cert.BatchFn.piece2_eq _ _ _ _ _ _) x).trans
      (piece_apply x0 x1 x2 x3 x4 x5 2 (by decide) Facts₀.inb_S4x100x1_S1x100x1_2_0_0 Facts₀.inb_S4x1x100_S1x1x100_2_0_0
        Facts₀.inb_S4x56x100_S1x56x100_2_0_0 Facts₀.inb_S4x100x8_S1x100x8_2_0_0 Facts₀.inb_S4x100x10_S1x100x10_2_0_0
        Facts₀.inb_S4x100x100_S1x100x100_2_0_0 x)
  · intro x
    exact (congrFun (Cert.BatchFn.piece1_eq _ _ _ _ _ _) x).trans
      (piece_apply x0 x1 x2 x3 x4 x5 1 (by decide) Facts₀.inb_S4x100x1_S1x100x1_1_0_0 Facts₀.inb_S4x1x100_S1x1x100_1_0_0
        Facts₀.inb_S4x56x100_S1x56x100_1_0_0 Facts₀.inb_S4x100x8_S1x100x8_1_0_0 Facts₀.inb_S4x100x10_S1x100x10_1_0_0
        Facts₀.inb_S4x100x100_S1x100x100_1_0_0 x)
  · intro x
    exact (congrFun (Cert.BatchFn.piece0_eq _ _ _ _ _ _) x).trans
      (piece_apply x0 x1 x2 x3 x4 x5 0 (by decide) Facts₀.inb_S4x100x1_S1x100x1_0_0_0 Facts₀.inb_S4x1x100_S1x1x100_0_0_0
        Facts₀.inb_S4x56x100_S1x56x100_0_0_0 Facts₀.inb_S4x100x8_S1x100x8_0_0_0 Facts₀.inb_S4x100x10_S1x100x10_0_0_0
        Facts₀.inb_S4x100x100_S1x100x100_0_0_0 x)

/-! ## The whole array's function -/

/-- The kernel's formula over the six whole arrays, at an index of the output array. -/
def karr (w0 : S16x100x1.Idx → EReal) (w1 : S16x56x100.Idx → EReal) (w2 : S16x100x8.Idx → EReal)
    (w3 : S16x100x10.Idx → EReal) (w4 : S16x1x100.Idx → EReal) (w5 : S16x56x100.Idx → EReal) :
    S16x100x100.Idx → EReal :=
  fun y => kcostAt w0 w1 w2 w3 w4 w5 ⟨(y 0).val, (y 0).isLt⟩ ⟨(y 1).val, (y 1).isLt⟩ ⟨(y 2).val, (y 2).isLt⟩

theorem karr_ix3 (w0 : S16x100x1.Idx → EReal) (w1 : S16x56x100.Idx → EReal) (w2 : S16x100x8.Idx → EReal)
    (w3 : S16x100x10.Idx → EReal) (w4 : S16x1x100.Idx → EReal) (w5 : S16x56x100.Idx → EReal)
    (b : Fin 16) (i j : Fin 100) :
    karr w0 w1 w2 w3 w4 w5 (ix3 b i j) = kcostAt w0 w1 w2 w3 w4 w5 b i j := rfl

theorem karr_of (w0 : S16x100x1.Idx → EReal) (w1 : S16x56x100.Idx → EReal) (w2 : S16x100x8.Idx → EReal)
    (w3 : S16x100x10.Idx → EReal) (w4 : S16x1x100.Idx → EReal) (w5 : S16x56x100.Idx → EReal)
    (z : S16x100x100.Idx) (b : Fin 16) (i j : Fin 100) (h0 : (z 0).val = b.val) (h1 : (z 1).val = i.val) (h2 : (z 2).val = j.val) :
    karr w0 w1 w2 w3 w4 w5 z = kcostAt w0 w1 w2 w3 w4 w5 b i j := by
  have e0 : (⟨(z 0).val, (z 0).isLt⟩ : Fin 16) = b := Fin.ext h0
  have e1 : (⟨(z 1).val, (z 1).isLt⟩ : Fin 100) = i := Fin.ext h1
  have e2 : (⟨(z 2).val, (z 2).isLt⟩ : Fin 100) = j := Fin.ext h2
  unfold karr
  rw [e0, e1, e2]

/-- Block `T` of the array's function, from blocks that are block `T` of the arrays: an index (k, p, q) of the output
    block is index (4 T + k, p, q) of the array. -/
theorem blk_point (x0 : Vec Ideal S4x100x1 .f32) (x1 : Vec Ideal S4x56x100 .f32) (x2 : Vec Ideal S4x100x8 .f32)
    (x3 : Vec Ideal S4x100x10 .f32) (x4 : Vec Ideal S4x1x100 .f32) (x5 : Vec Ideal S4x56x100 .f32)
    (A0 : S16x100x1.Idx → EReal) (A1 : S16x56x100.Idx → EReal) (A2 : S16x100x8.Idx → EReal)
    (A3 : S16x100x10.Idx → EReal) (A4 : S16x1x100.Idx → EReal) (A5 : S16x56x100.Idx → EReal)
    (T : ℕ) (hT : T ≤ 3)
    (h0 : ∀ (k : Fin 4) (i : Fin 100) (n : Fin 1), x0 (ix3 k i n) = A0 (ix3 (⟨4 * T + k.val, by omega⟩ : Fin 16) i n))
    (h1 : ∀ (k : Fin 4) (r : Fin 56) (i : Fin 100), x1 (ix3 k r i) = A1 (ix3 (⟨4 * T + k.val, by omega⟩ : Fin 16) r i))
    (h2 : ∀ (k : Fin 4) (i : Fin 100) (n : Fin 8), x2 (ix3 k i n) = A2 (ix3 (⟨4 * T + k.val, by omega⟩ : Fin 16) i n))
    (h3 : ∀ (k : Fin 4) (i : Fin 100) (n : Fin 10), x3 (ix3 k i n) = A3 (ix3 (⟨4 * T + k.val, by omega⟩ : Fin 16) i n))
    (h4 : ∀ (k : Fin 4) (u : Fin 1) (j : Fin 100), x4 (ix3 k u j) = A4 (ix3 (⟨4 * T + k.val, by omega⟩ : Fin 16) u j))
    (h5 : ∀ (k : Fin 4) (r : Fin 56) (j : Fin 100), x5 (ix3 k r j) = A5 (ix3 (⟨4 * T + k.val, by omega⟩ : Fin 16) r j))
    (y : S4x100x100.Idx) (z : S16x100x100.Idx)
    (hz0 : (z 0).val = 4 * T + (y 0).val) (hz1 : (z 1).val = (y 1).val) (hz2 : (z 2).val = (y 2).val) :
    out0_6 x0 x1 x2 x3 x4 x5 y = karr A0 A1 A2 A3 A4 A5 z := by
  rw [out_eq]
  obtain ⟨k, p, q, rfl⟩ : ∃ (k : Fin 4) (p q : Fin 100), y = ix3 k p q := ⟨y 0, y 1, y 2, eq_ix3 y⟩
  refine (Gblk_of x0 x1 x2 x3 x4 x5 (ix3 k p q) k p q rfl rfl rfl).trans ?_
  refine (kcostAt_congr x0 x1 x2 x3 x4 x5 A0 A1 A2 A3 A4 A5 k (⟨4 * T + k.val, by omega⟩ : Fin 16)
    (h0 k) (h1 k) (h2 k) (h3 k) (h4 k) (h5 k) p q).trans ?_
  exact (karr_of A0 A1 A2 A3 A4 A5 z (⟨4 * T + k.val, by omega⟩ : Fin 16) p q hz0 hz1 hz2).symm

/-! ## The blocks at a grid point -/

variable (m : (ℓ : Loc nD τ sig) → Buf (Elt Ideal) ℓ) (ρ : Dev nD → PrngReg)

/-- The printed index maps over the grid: every window's block index is (the output's block index, 0, 0), and the
    output's block index along the batches is at most 3. -/
theorem idx_facts : ∀ t : Fin cfg0.N,
    (win0_0.index t (0 : Fin 3) = win0_6.index t (0 : Fin 3) ∧ win0_0.index t (1 : Fin 3) = 0 ∧ win0_0.index t (2 : Fin 3) = 0)
    ∧ (win0_1.index t (0 : Fin 3) = win0_6.index t (0 : Fin 3) ∧ win0_1.index t (1 : Fin 3) = 0 ∧ win0_1.index t (2 : Fin 3) = 0)
    ∧ (win0_2.index t (0 : Fin 3) = win0_6.index t (0 : Fin 3) ∧ win0_2.index t (1 : Fin 3) = 0 ∧ win0_2.index t (2 : Fin 3) = 0)
    ∧ (win0_3.index t (0 : Fin 3) = win0_6.index t (0 : Fin 3) ∧ win0_3.index t (1 : Fin 3) = 0 ∧ win0_3.index t (2 : Fin 3) = 0)
    ∧ (win0_4.index t (0 : Fin 3) = win0_6.index t (0 : Fin 3) ∧ win0_4.index t (1 : Fin 3) = 0 ∧ win0_4.index t (2 : Fin 3) = 0)
    ∧ (win0_5.index t (0 : Fin 3) = win0_6.index t (0 : Fin 3) ∧ win0_5.index t (1 : Fin 3) = 0 ∧ win0_5.index t (2 : Fin 3) = 0)
    ∧ (win0_6.index t (0 : Fin 3) ≤ 3 ∧ win0_6.index t (1 : Fin 3) = 0 ∧ win0_6.index t (2 : Fin 3) = 0) :=
  (by decide +kernel : ∀ t : Fin grid0.N, _)

/-- Every block of the output array along the batches is some point's. -/
theorem idx_onto : ∀ q0 : Fin 4, ∃ t : Fin cfg0.N, win0_6.index t = ![q0.val, 0, 0] :=
  (by decide +kernel : ∀ q0 : Fin 4, ∃ t : Fin grid0.N, win0_6.index t = ![q0.val, 0, 0])

/-- Batch k of block `t` of window 0's array is batch 4 T + k of the array, `T` the block's index along the batches. -/
theorem iblk0_apply (c : Dev nD) (t : Fin cfg0.N) (T : ℕ) (hT : T ≤ 3) (e0 : win0_0.index t (0 : Fin 3) = T)
    (e1 : win0_0.index t (1 : Fin 3) = 0) (e2 : win0_0.index t (2 : Fin 3) = 0)
    (k : Fin 4) (i : Fin 100) (n : Fin 1) :
    (iblk m c 0 t : Vec Ideal S4x100x1 .f32) (ix3 k i n)
      = (V m c main_arg0 : S16x100x1.Idx → EReal) (ix3 (⟨4 * T + k.val, by omega⟩ : Fin 16) i n) := by
  show (V m c main_arg0 : S16x100x1.Idx → EReal) (((cfg0.win 0).blk t).view.emb (ix3 k i n)) = _
  refine congrArg (V m c main_arg0 : S16x100x1.Idx → EReal) (funext fun a => Fin.ext ?_)
  match a with
  | ⟨0, _⟩ => show win0_0.index t (0 : Fin 3) * 4 + 1 * k.val = 4 * T + k.val; rw [e0]; omega
  | ⟨1, _⟩ => show win0_0.index t (1 : Fin 3) * 100 + 1 * i.val = i.val; rw [e1]; omega
  | ⟨2, _⟩ => show win0_0.index t (2 : Fin 3) * 1 + 1 * n.val = n.val; rw [e2]; omega

/-- Batch k of block `t` of window 1's array is batch 4 T + k of the array, `T` the block's index along the batches. -/
theorem iblk1_apply (c : Dev nD) (t : Fin cfg0.N) (T : ℕ) (hT : T ≤ 3) (e0 : win0_1.index t (0 : Fin 3) = T)
    (e1 : win0_1.index t (1 : Fin 3) = 0) (e2 : win0_1.index t (2 : Fin 3) = 0)
    (k : Fin 4) (r : Fin 56) (i : Fin 100) :
    (iblk m c 1 t : Vec Ideal S4x56x100 .f32) (ix3 k r i)
      = (V m c main_v1 : S16x56x100.Idx → EReal) (ix3 (⟨4 * T + k.val, by omega⟩ : Fin 16) r i) := by
  show (V m c main_v1 : S16x56x100.Idx → EReal) (((cfg0.win 1).blk t).view.emb (ix3 k r i)) = _
  refine congrArg (V m c main_v1 : S16x56x100.Idx → EReal) (funext fun a => Fin.ext ?_)
  match a with
  | ⟨0, _⟩ => show win0_1.index t (0 : Fin 3) * 4 + 1 * k.val = 4 * T + k.val; rw [e0]; omega
  | ⟨1, _⟩ => show win0_1.index t (1 : Fin 3) * 56 + 1 * r.val = r.val; rw [e1]; omega
  | ⟨2, _⟩ => show win0_1.index t (2 : Fin 3) * 100 + 1 * i.val = i.val; rw [e2]; omega

/-- Batch k of block `t` of window 2's array is batch 4 T + k of the array, `T` the block's index along the batches. -/
theorem iblk2_apply (c : Dev nD) (t : Fin cfg0.N) (T : ℕ) (hT : T ≤ 3) (e0 : win0_2.index t (0 : Fin 3) = T)
    (e1 : win0_2.index t (1 : Fin 3) = 0) (e2 : win0_2.index t (2 : Fin 3) = 0)
    (k : Fin 4) (i : Fin 100) (n : Fin 8) :
    (iblk m c 2 t : Vec Ideal S4x100x8 .f32) (ix3 k i n)
      = (V m c main_arg2 : S16x100x8.Idx → EReal) (ix3 (⟨4 * T + k.val, by omega⟩ : Fin 16) i n) := by
  show (V m c main_arg2 : S16x100x8.Idx → EReal) (((cfg0.win 2).blk t).view.emb (ix3 k i n)) = _
  refine congrArg (V m c main_arg2 : S16x100x8.Idx → EReal) (funext fun a => Fin.ext ?_)
  match a with
  | ⟨0, _⟩ => show win0_2.index t (0 : Fin 3) * 4 + 1 * k.val = 4 * T + k.val; rw [e0]; omega
  | ⟨1, _⟩ => show win0_2.index t (1 : Fin 3) * 100 + 1 * i.val = i.val; rw [e1]; omega
  | ⟨2, _⟩ => show win0_2.index t (2 : Fin 3) * 8 + 1 * n.val = n.val; rw [e2]; omega

/-- Batch k of block `t` of window 3's array is batch 4 T + k of the array, `T` the block's index along the batches. -/
theorem iblk3_apply (c : Dev nD) (t : Fin cfg0.N) (T : ℕ) (hT : T ≤ 3) (e0 : win0_3.index t (0 : Fin 3) = T)
    (e1 : win0_3.index t (1 : Fin 3) = 0) (e2 : win0_3.index t (2 : Fin 3) = 0)
    (k : Fin 4) (i : Fin 100) (n : Fin 10) :
    (iblk m c 3 t : Vec Ideal S4x100x10 .f32) (ix3 k i n)
      = (V m c main_arg3 : S16x100x10.Idx → EReal) (ix3 (⟨4 * T + k.val, by omega⟩ : Fin 16) i n) := by
  show (V m c main_arg3 : S16x100x10.Idx → EReal) (((cfg0.win 3).blk t).view.emb (ix3 k i n)) = _
  refine congrArg (V m c main_arg3 : S16x100x10.Idx → EReal) (funext fun a => Fin.ext ?_)
  match a with
  | ⟨0, _⟩ => show win0_3.index t (0 : Fin 3) * 4 + 1 * k.val = 4 * T + k.val; rw [e0]; omega
  | ⟨1, _⟩ => show win0_3.index t (1 : Fin 3) * 100 + 1 * i.val = i.val; rw [e1]; omega
  | ⟨2, _⟩ => show win0_3.index t (2 : Fin 3) * 10 + 1 * n.val = n.val; rw [e2]; omega

/-- Batch k of block `t` of window 4's array is batch 4 T + k of the array, `T` the block's index along the batches. -/
theorem iblk4_apply (c : Dev nD) (t : Fin cfg0.N) (T : ℕ) (hT : T ≤ 3) (e0 : win0_4.index t (0 : Fin 3) = T)
    (e1 : win0_4.index t (1 : Fin 3) = 0) (e2 : win0_4.index t (2 : Fin 3) = 0)
    (k : Fin 4) (u : Fin 1) (j : Fin 100) :
    (iblk m c 4 t : Vec Ideal S4x1x100 .f32) (ix3 k u j)
      = (V m c main_v4 : S16x1x100.Idx → EReal) (ix3 (⟨4 * T + k.val, by omega⟩ : Fin 16) u j) := by
  show (V m c main_v4 : S16x1x100.Idx → EReal) (((cfg0.win 4).blk t).view.emb (ix3 k u j)) = _
  refine congrArg (V m c main_v4 : S16x1x100.Idx → EReal) (funext fun a => Fin.ext ?_)
  match a with
  | ⟨0, _⟩ => show win0_4.index t (0 : Fin 3) * 4 + 1 * k.val = 4 * T + k.val; rw [e0]; omega
  | ⟨1, _⟩ => show win0_4.index t (1 : Fin 3) * 1 + 1 * u.val = u.val; rw [e1]; omega
  | ⟨2, _⟩ => show win0_4.index t (2 : Fin 3) * 100 + 1 * j.val = j.val; rw [e2]; omega

/-- Batch k of block `t` of window 5's array is batch 4 T + k of the array, `T` the block's index along the batches. -/
theorem iblk5_apply (c : Dev nD) (t : Fin cfg0.N) (T : ℕ) (hT : T ≤ 3) (e0 : win0_5.index t (0 : Fin 3) = T)
    (e1 : win0_5.index t (1 : Fin 3) = 0) (e2 : win0_5.index t (2 : Fin 3) = 0)
    (k : Fin 4) (r : Fin 56) (j : Fin 100) :
    (iblk m c 5 t : Vec Ideal S4x56x100 .f32) (ix3 k r j)
      = (V m c main_v3 : S16x56x100.Idx → EReal) (ix3 (⟨4 * T + k.val, by omega⟩ : Fin 16) r j) := by
  show (V m c main_v3 : S16x56x100.Idx → EReal) (((cfg0.win 5).blk t).view.emb (ix3 k r j)) = _
  refine congrArg (V m c main_v3 : S16x56x100.Idx → EReal) (funext fun a => Fin.ext ?_)
  match a with
  | ⟨0, _⟩ => show win0_5.index t (0 : Fin 3) * 4 + 1 * k.val = 4 * T + k.val; rw [e0]; omega
  | ⟨1, _⟩ => show win0_5.index t (1 : Fin 3) * 56 + 1 * r.val = r.val; rw [e1]; omega
  | ⟨2, _⟩ => show win0_5.index t (2 : Fin 3) * 100 + 1 * j.val = j.val; rw [e2]; omega

/-! ## What a point writes back, the cover, the array -/

/-- What point `t` writes back is block `t` of the formula over the six arrays as the region finds them. -/
theorem flushed_eq (c : Dev nD) (t : Fin cfg0.N) :
    (dats m 0 c).flushed 6 t = ((cfg0.win 6).blk t).view.read (Elt Ideal)
      (karr (V m c main_arg0) (V m c main_v1) (V m c main_arg2) (V m c main_arg3) (V m c main_v4) (V m c main_v3)) := by
  rw [Cert.KernelIdeal.Value.flushed6 m c t]
  obtain ⟨⟨a0, a1, a2⟩, ⟨b0, b1, b2⟩, ⟨c0, c1, c2⟩, ⟨d0, d1, d2⟩, ⟨f0, f1, f2⟩, ⟨g0, g1, g2⟩, ⟨hT, o1, o2⟩⟩ := idx_facts t
  funext y
  show out0_6 (iblk m c 0 t) (iblk m c 1 t) (iblk m c 2 t) (iblk m c 3 t) (iblk m c 4 t) (iblk m c 5 t) y
    = (karr (V m c main_arg0) (V m c main_v1) (V m c main_arg2) (V m c main_arg3) (V m c main_v4) (V m c main_v3)) (((cfg0.win 6).blk t).view.emb y)
  exact blk_point (iblk m c 0 t) (iblk m c 1 t) (iblk m c 2 t) (iblk m c 3 t) (iblk m c 4 t) (iblk m c 5 t)
    (V m c main_arg0) (V m c main_v1) (V m c main_arg2) (V m c main_arg3) (V m c main_v4) (V m c main_v3)
    (win0_6.index t (0 : Fin 3)) hT
    (iblk0_apply m c t _ hT a0 a1 a2) (iblk1_apply m c t _ hT b0 b1 b2) (iblk2_apply m c t _ hT c0 c1 c2)
    (iblk3_apply m c t _ hT d0 d1 d2) (iblk4_apply m c t _ hT f0 f1 f2) (iblk5_apply m c t _ hT g0 g1 g2)
    y (((cfg0.win 6).blk t).view.emb y)
    (by show win0_6.index t (0 : Fin 3) * 4 + 1 * (y 0).val = 4 * win0_6.index t (0 : Fin 3) + (y 0).val; omega)
    (by show win0_6.index t (1 : Fin 3) * 100 + 1 * (y 1).val = (y 1).val; rw [o1]; omega)
    (by show win0_6.index t (2 : Fin 3) * 100 + 1 * (y 2).val = (y 2).val; rw [o2]; omega)

/-- An index of the output array is in point `t`'s block iff each coordinate is in the block's range on its axis. -/
theorem mem_blk (t : Fin cfg0.N) (i : S16x100x100.Idx) :
    i ∈ ((cfg0.win 6).blk t).view.set ↔ ∀ a : Fin 3, win0_6.index t a * S4x100x100.size a ≤ (i a).val
      ∧ (i a).val < win0_6.index t a * S4x100x100.size a + S4x100x100.size a := by
  show i ∈ ((View.whole main_v5).slice (win0_6.rect t)).set ↔ _
  rw [View.set_slice_whole, Rect.mem_set_unit]
  exact Iff.rfl

/-- Every index of the output array is in some point's block: batch b lies in block b / 4. -/
theorem covered (i : S16x100x100.Idx) :
    ∃ t : Fin cfg0.N, (cfg0.win 6).flush t = true ∧ i ∈ ((cfg0.win 6).blk t).view.set := by
  have hi0 : (i 0).val < 16 := (i 0).isLt
  have hi1 : (i 1).val < 100 := (i 1).isLt
  have hi2 : (i 2).val < 100 := (i 2).isLt
  obtain ⟨t, ht⟩ := idx_onto ⟨(i 0).val / 4, by omega⟩
  have q0 : win0_6.index t (0 : Fin 3) = (i 0).val / 4 := congrFun ht 0
  have q1 : win0_6.index t (1 : Fin 3) = 0 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 4 ≤ (i 0).val ∧ (i 0).val < win0_6.index t (0 : Fin 3) * 4 + 4; omega
  | ⟨1, _⟩ => show win0_6.index t (1 : Fin 3) * 100 ≤ (i 1).val ∧ (i 1).val < win0_6.index t (1 : Fin 3) * 100 + 100; omega
  | ⟨2, _⟩ => show win0_6.index t (2 : Fin 3) * 100 ≤ (i 2).val ∧ (i 2).val < win0_6.index t (2 : Fin 3) * 100 + 100; omega

/-- The output array after the run: the kernel's formula over the six arrays the region finds, everywhere. -/
theorem final6 (c : Dev nD) : (dats m 0 c).arrAt 6 cfg0.N
    = (karr (V m c main_arg0) (V m c main_v1) (V m c main_arg2) (V m c main_arg3) (V m c main_v4) (V m c main_v3)) :=
  (dats m 0 c).arrAt_eq_of_cover 6
    (karr (V m c main_arg0) (V m c main_v1) (V m c main_arg2) (V m c main_arg3) (V m c main_v4) (V m c main_v3))
    (fun t _ => flushed_eq m c t) covered

/-! ## The run, read -/

/-- The kernel's run with its result named: the output array at the formula over the staged arrays, the eight
    arguments unchanged. -/
theorem run : θ_run defs (onTc (τ := τ) (main (F := Ideal))) ⟨m, fun _ => 0, ρ⟩ fun r => ∀ c : Dev nD,
      r.2.mem ((c : Thread nD τ).loc main_v5) = (karr (V m c main_arg0) (V m c main_v1) (V m c main_arg2) (V m c main_arg3) (V m c main_v4) (V m c main_v3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final6 m c), (h c).2⟩)
    (Cert.KernelIdeal.Value.run_blocks m ρ)

end Cert.KernelValue

end
-- ==== Proof.LibSideBySide.lean ====
/-
  Two matrices laid side by side, read one entry at a time.

  For `x : [K, A]` and `y : [K, B]` the array `[x | y] : [K, T]` (the concatenation along the column axis) has column
  `q` of `x` as its column `q`, for `q < A`, and column `q` of `y` as its column `A + q`, for `q < B`.
-/
import Idealize.ShloMosaic.Lib.Pipeline.Value
import Idealize.ShloMosaic.Lib.ValueIdx

noncomputable section

namespace Cert.SideBySide

open Idealize.ShloMosaic Idealize.ShloMosaic.ValueIdx

variable {α : Type} {K A B T : Nat}

/-- A column of the left piece. -/
theorem left_apply (x : (⟨2, ![K, A]⟩ : Shape).Idx → α) (y : (⟨2, ![K, B]⟩ : Shape).Idx → α)
    (h : Shape.Concatenates [⟨2, ![K, A]⟩, ⟨2, ![K, B]⟩] ⟨2, ![K, T]⟩ 1) (k : Fin K) (q : Fin A) (c : Fin T)
    (hc : c.val = q.val) :
    concatenate ⟨2, ![K, T]⟩ 1 [⟨⟨2, ![K, A]⟩, x⟩, ⟨⟨2, ![K, B]⟩, y⟩] h (ix2 k c) = x (ix2 k q) :=
  concatenate_apply_piece (t := ⟨2, ![K, T]⟩) (1 : Fin 2) [⟨⟨2, ![K, A]⟩, x⟩, ⟨⟨2, ![K, B]⟩, y⟩] h (ix2 k c) 0 (by simp) ⟨2, ![K, A]⟩ x rfl rfl
    0 rfl (ix2 k q)
    (fun b hb => match b, hb with
      | ⟨0, _⟩, _ => rfl
      | ⟨1, _⟩, hb => absurd rfl hb)
    (by show 0 + q.val = c.val; omega)

/-- A column of the right piece. -/
theorem right_apply (x : (⟨2, ![K, A]⟩ : Shape).Idx → α) (y : (⟨2, ![K, B]⟩ : Shape).Idx → α)
    (h : Shape.Concatenates [⟨2, ![K, A]⟩, ⟨2, ![K, B]⟩] ⟨2, ![K, T]⟩ 1) (k : Fin K) (q : Fin B) (c : Fin T)
    (hc : c.val = A + q.val) :
    concatenate ⟨2, ![K, T]⟩ 1 [⟨⟨2, ![K, A]⟩, x⟩, ⟨⟨2, ![K, B]⟩, y⟩] h (ix2 k c) = y (ix2 k q) :=
  concatenate_apply_piece (t := ⟨2, ![K, T]⟩) (1 : Fin 2) [⟨⟨2, ![K, A]⟩, x⟩, ⟨⟨2, ![K, B]⟩, y⟩] h (ix2 k c) 1 (by simp) ⟨2, ![K, B]⟩ y rfl rfl
    A (by simp) (ix2 k q)
    (fun b hb => match b, hb with
      | ⟨0, _⟩, _ => rfl
      | ⟨1, _⟩, hb => absurd rfl hb)
    (by show A + q.val = c.val; omega)

end Cert.SideBySide

end
-- ==== Proof.RefIsCost.lean ====
/-
  The reference program's result is the specification, entry by entry.  The reference flattens batch and query into one
  axis of 1600 rows (row 100·b + i), builds the full [1600, 1600] matrix whose entry (r, c) is

    1·bce(t_c, log σ(x_r), log1p(-σ(x_r))) + 1·(0 + Σ_{k<51} |P(r,k) - T(c,k)|) + (1·(-lsmA(r,0)) + 1·(-lsmI(r,0))),

  reshapes it to [16, 100, 16, 100] and gathers the diagonal blocks with the index pairs (b, b).  Here: the index pairs
  are (b, b) (the wrap-around of negative indices never fires on 0 … 15); the gather at (b, i, j) reads entry
  (b, i, b, j), that is entry (100·b + i, 100·b + j) of the matrix; and each block of the matrix at such an entry is the
  corresponding term of the specification (the weights are 1, the sum's initial value is 0, 1/(1 + e^{-x}) is the
  logistic function, the row maximum of a log-softmax is the maximum with -∞ of the running maximum from -∞).
-/
import proofs.«133896_j37967510896919_2_alg».proof.Proof.RefReadP
import proofs.«133896_j37967510896919_2_alg».proof.Proof.CostSpec
import proofs.«133896_j37967510896919_2_alg».proof.Proof.LibLogSigmoid
import proofs.«133896_j37967510896919_2_alg».proof.Proof.LibSideBySide

noncomputable section

namespace Cert.RefIsCost

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx Cert.CostSpec

/-- Row 100·b + i of the flattened axis of 1600 rows. -/
def row (b : Fin 16) (i : Fin 100) : Fin 1600 := ⟨100 * b.val + i.val, by have := b.isLt; have := i.isLt; omega⟩

/-! ## The index pairs and the gather -/

/-- The first index column at b is b: b is not negative, so 16 is not added. -/
theorem v64_at (b : Fin 16) : val_main_v64 (F := Ideal) (ix1 b) = BitVec.ofNat 32 b.val := by
  rw [val_main_v64_apply, val_main_v61_apply, val_main_v63_apply, val_main_v58_apply, val_main_v60_apply, val_main_c_apply,
    val_main_v62_apply, val_main_c_7_apply]
  show Scalar.select (IntOp.cmpi .slt (BitVec.ofNat 32 b.val) 0#32) (IntOp.addi (BitVec.ofNat 32 b.val) 16#32) (BitVec.ofNat 32 b.val)
    = BitVec.ofNat 32 b.val
  revert b; decide

/-- The second index column at b is b, likewise. -/
theorem v69_at (b : Fin 16) : val_main_v69 (F := Ideal) (ix1 b) = BitVec.ofNat 32 b.val := by
  rw [val_main_v69_apply, val_main_v66_apply, val_main_v68_apply, val_main_v59_apply, val_main_v65_apply, val_main_c_8_apply,
    val_main_v67_apply, val_main_c_9_apply]
  show Scalar.select (IntOp.cmpi .slt (BitVec.ofNat 32 b.val) 0#32) (IntOp.addi (BitVec.ofNat 32 b.val) 16#32) (BitVec.ofNat 32 b.val)
    = BitVec.ofNat 32 b.val
  revert b; decide

/-- The first component of the index pair of batch b is b. -/
theorem v72_left (b : Fin 16) : val_main_v72 (F := Ideal) (ix2 b (0 : Fin 2)) = BitVec.ofNat 32 b.val := by
  unfold val_main_v72
  refine (Cert.SideBySide.left_apply (K := 16) (A := 1) (B := 1) (T := 2) (val_main_v70 (F := Ideal)) (val_main_v71 (F := Ideal))
    concatenates_S16x1_S16x1_S16x2_d1 b (0 : Fin 1) (0 : Fin 2) rfl).trans ?_
  rw [val_main_v70_apply]
  have e : idx_main_v70 (ix2 b (0 : Fin 1)) = ix1 b := by funext a; match a with | ⟨0, _⟩ => rfl
  rw [e, v64_at]

/-- The second component of the index pair of batch b is b. -/
theorem v72_right (b : Fin 16) : val_main_v72 (F := Ideal) (ix2 b (1 : Fin 2)) = BitVec.ofNat 32 b.val := by
  unfold val_main_v72
  refine (Cert.SideBySide.right_apply (K := 16) (A := 1) (B := 1) (T := 2) (val_main_v70 (F := Ideal)) (val_main_v71 (F := Ideal))
    concatenates_S16x1_S16x1_S16x2_d1 b (0 : Fin 1) (1 : Fin 2) rfl).trans ?_
  rw [val_main_v71_apply]
  have e : idx_main_v71 (ix2 b (0 : Fin 1)) = ix1 b := by funext a; match a with | ⟨0, _⟩ => rfl
  rw [e, v69_at]

/-- The dimension numbers of the final gather. -/
abbrev gd : GatherDims S16x100x16x100 S16x2 S16x100x100 := gather_S16x100x16x100_S16x2_S16x100x100_12_02_n_n_02_1_11001100

/-- A word below 16 read as a signed integer is itself. -/
theorem toNat_ofNat (b : Fin 16) : (BitVec.ofNat 32 b.val).toInt.toNat = b.val := by revert b; decide

/-- On the first operand axis the gather reads the first component of the index pair of batch b, which is b. -/
theorem opIdx0 (b : Fin 16) (i j : Fin 100) : (gd.operandIdx (ix3 b i j) (val_main_v72 (F := Ideal)) (0 : Fin 4)).val = b.val := by
  show gd.start (ix3 b i j) (val_main_v72 (F := Ideal)) (0 : Fin 4) + gd.batchCoord (ix3 b i j) (0 : Fin 4) + gd.offCoord (ix3 b i j) (0 : Fin 4) = b.val
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (by decide)]
  have hsi : gd.siIdx (ix3 b i j) ⟨List.idxOf (0 : Fin 4) gd.startIndexMap, List.idxOf_lt_length_iff.2 (by decide)⟩ = ix2 b (0 : Fin 2) := by
    funext c; refine Fin.ext ?_
    match c with
    | ⟨0, _⟩ => rfl
    | ⟨1, _⟩ => rfl
  rw [hsi, v72_left, toNat_ofNat]
  show min b.val (16 - 1) = b.val
  have := b.isLt; omega

/-- On the third operand axis it reads the second component, which is b too. -/
theorem opIdx2 (b : Fin 16) (i j : Fin 100) : (gd.operandIdx (ix3 b i j) (val_main_v72 (F := Ideal)) (2 : Fin 4)).val = b.val := by
  show gd.start (ix3 b i j) (val_main_v72 (F := Ideal)) (2 : Fin 4) + gd.batchCoord (ix3 b i j) (2 : Fin 4) + gd.offCoord (ix3 b i j) (2 : Fin 4) = b.val
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (by decide)]
  have hsi : gd.siIdx (ix3 b i j) ⟨List.idxOf (2 : Fin 4) gd.startIndexMap, List.idxOf_lt_length_iff.2 (by decide)⟩ = ix2 b (1 : Fin 2) := by
    funext c; refine Fin.ext ?_
    match c with
    | ⟨0, _⟩ => rfl
    | ⟨1, _⟩ => rfl
  rw [hsi, v72_right, toNat_ofNat]
  show min b.val (16 - 1) = b.val
  have := b.isLt; omega

/-- On the second operand axis it reads the result's second coordinate. -/
theorem opIdx1 (b : Fin 16) (i j : Fin 100) : (gd.operandIdx (ix3 b i j) (val_main_v72 (F := Ideal)) (1 : Fin 4)).val = i.val := by
  show gd.start (ix3 b i j) (val_main_v72 (F := Ideal)) (1 : Fin 4) + gd.batchCoord (ix3 b i j) (1 : Fin 4) + gd.offCoord (ix3 b i j) (1 : Fin 4) = i.val
  rw [GatherDims.batchCoord_eq_zero _ _ _ List.not_mem_nil, Nat.add_zero]
  have hs : gd.start (ix3 b i j) (val_main_v72 (F := Ideal)) (1 : Fin 4) = 0 := by
    unfold GatherDims.start; exact dif_neg (by decide)
  have ho : gd.offCoord (ix3 b i j) (1 : Fin 4) = i.val := by
    unfold GatherDims.offCoord; rw [dif_pos (by decide)]; rfl
  rw [hs, ho, Nat.zero_add]

/-- On the fourth operand axis it reads the result's third coordinate. -/
theorem opIdx3 (b : Fin 16) (i j : Fin 100) : (gd.operandIdx (ix3 b i j) (val_main_v72 (F := Ideal)) (3 : Fin 4)).val = j.val := by
  show gd.start (ix3 b i j) (val_main_v72 (F := Ideal)) (3 : Fin 4) + gd.batchCoord (ix3 b i j) (3 : Fin 4) + gd.offCoord (ix3 b i j) (3 : Fin 4) = j.val
  rw [GatherDims.batchCoord_eq_zero _ _ _ List.not_mem_nil, Nat.add_zero]
  have hs : gd.start (ix3 b i j) (val_main_v72 (F := Ideal)) (3 : Fin 4) = 0 := by
    unfold GatherDims.start; exact dif_neg (by decide)
  have ho : gd.offCoord (ix3 b i j) (3 : Fin 4) = j.val := by
    unfold GatherDims.offCoord; rw [dif_pos (by decide)]; rfl
  rw [hs, ho, Nat.zero_add]

/-- The index pair of batch b is (b, b): the gather reads entry (b, i, b, j) of the four-axis array. -/
theorem gather_idx (b : Fin 16) (i j : Fin 100) :
    gd.operandIdx (ix3 b i j) (val_main_v72 (F := Ideal)) = ix4 b i b j := by
  funext a; apply Fin.ext
  match a with
  | ⟨0, _⟩ => exact opIdx0 b i j
  | ⟨1, _⟩ => exact opIdx1 b i j
  | ⟨2, _⟩ => exact opIdx2 b i j
  | ⟨3, _⟩ => exact opIdx3 b i j

/-! ## The binary cross-entropy block -/

/-- The flattened target confidences at row 100·b + j. -/
theorem v7_at (x4 : (⟨S16x100, .f32⟩ : BufTy).Contents (Elt Ideal)) (b : Fin 16) (j : Fin 100) :
    val_main_v7 (F := Ideal) x4 (ix1 (row b j)) = x4 (ix2 b j) := by
  rw [val_main_v7_apply]
  refine congrArg x4 (funext fun a => Fin.ext ?_)
  have := b.isLt; have := j.isLt
  match a with
  | ⟨0, _⟩ => show (100 * b.val + j.val) / 100 = b.val; omega
  | ⟨1, _⟩ => show (100 * b.val + j.val) % 100 = j.val; omega

/-- The flattened σ(pred_conf) at row 100·b + i: 1 / (1 + e^{-x}) is the logistic function. -/
theorem v6_at (x0 : (⟨S16x100x1, .f32⟩ : BufTy).Contents (Elt Ideal)) (b : Fin 16) (i : Fin 100) :
    val_main_v6 (F := Ideal) x0 (ix1 (row b i)) = Ideal.logistic (x0 (ix3 b i (0 : Fin 1))) := by
  have e : idx_main_v6 (ix1 (row b i)) = ix3 b i (0 : Fin 1) := by
    funext a; apply Fin.ext
    have := b.isLt; have := i.isLt
    match a with
    | ⟨0, _⟩ => show (100 * b.val + i.val) / 100 = b.val; omega
    | ⟨1, _⟩ => show (100 * b.val + i.val) / 1 % 100 = i.val; omega
    | ⟨2, _⟩ => rfl
  rw [val_main_v6_apply, e, val_main_v5_apply, val_main_v4_apply, val_main_v3_apply, val_main_v2_apply, val_main_v1_apply,
    val_main_v0_apply, val_main_cst_apply, val_main_cst_0_apply]
  simp only [Ideal.ofBits_def, Ideal.hostDivf_def, Ideal.addf_def, Ideal.hostUnary_exp_def, Ideal.hostNegf_def, Ideal.negf_def,
    Cert.LogSigmoid.ofBits_one_f32]
  rfl

/-- Entry (100·b + i, 100·b + j) of the cross-entropy matrix. -/
theorem v24_at (x0 : (⟨S16x100x1, .f32⟩ : BufTy).Contents (Elt Ideal)) (x4 : (⟨S16x100, .f32⟩ : BufTy).Contents (Elt Ideal))
    (b : Fin 16) (i j : Fin 100) :
    val_main_v24 (F := Ideal) x0 x4 (ix2 (row b i) (row b j))
      = bce (x4 (ix2 b j)) (logSig (x0 (ix3 b i (0 : Fin 1)))) (logOneMinusSig (x0 (ix3 b i (0 : Fin 1)))) := by
  have e13 : idx_main_v11 (idx_main_v13 (ix2 (row b i) (row b j))) = ix1 (row b j) := by
    funext a; match a with | ⟨0, _⟩ => rfl
  have e14 : idx_main_v12 (idx_main_v14 (ix2 (row b i) (row b j))) = ix1 (row b i) := by
    funext a; match a with | ⟨0, _⟩ => rfl
  have e20 : idx_main_v16 (idx_main_v20 (ix2 (row b i) (row b j))) = ix1 (row b j) := by
    funext a; match a with | ⟨0, _⟩ => rfl
  have e21 : idx_main_v19 (idx_main_v21 (ix2 (row b i) (row b j))) = ix1 (row b i) := by
    funext a; match a with | ⟨0, _⟩ => rfl
  rw [val_main_v24_apply, val_main_v23_apply, val_main_v15_apply, val_main_v22_apply,
    val_main_v13_apply, val_main_v11_apply, e13, val_main_v14_apply, val_main_v12_apply, e14, val_main_v8_apply,
    val_main_v20_apply, val_main_v18_apply, val_main_v17_apply, val_main_cst_1_apply, val_main_v16_apply, e20,
    val_main_v21_apply, val_main_v19_apply, e21, val_main_v10_apply, val_main_v9_apply, v7_at x4 b j, v6_at x0 b i]
  simp only [Ideal.ofBits_def, Ideal.addf_def, Ideal.subf_def, Ideal.mulf_def, Ideal.hostUnary_log_def, Ideal.hostUnary_log1p_def,
    Ideal.hostNegf_def, Ideal.negf_def, Cert.LogSigmoid.ofBits_one_f32]
  rfl

/-! ## The L1 block -/

/-- Entry (100·b + i, 100·b + j) of the L1 distance matrix of the joints. -/
theorem v33_at (x1 x5 : (⟨S16x100x51, .f32⟩ : BufTy).Contents (Elt Ideal)) (b : Fin 16) (i j : Fin 100) :
    val_main_v33 (F := Ideal) x1 x5 (ix2 (row b i) (row b j))
      = l1 (fun k : Fin 51 => x1 (ix3 b i k)) (fun k : Fin 51 => x5 (ix3 b j k)) := by
  rw [val_main_v33_apply, val_main_cst_2_apply]
  simp only [Ideal.ofBits_def, Ideal.ofBits_zero_f32, zero_add]
  unfold l1
  refine Finset.sum_congr rfl fun k _ => ?_
  have e1 : idx_main_v25 (idx_main_v27 (idx_main_v29 (idx_main_v33 (ix2 (row b i) (row b j)) k))) = ix3 b i k := by
    funext a; apply Fin.ext
    have := b.isLt; have := i.isLt; have := k.isLt
    match a with
    | ⟨0, _⟩ => show ((100 * b.val + i.val) * 51 + k.val) / 5100 = b.val; omega
    | ⟨1, _⟩ => show ((100 * b.val + i.val) * 51 + k.val) / 51 % 100 = i.val; omega
    | ⟨2, _⟩ => show ((100 * b.val + i.val) * 51 + k.val) % 51 = k.val; omega
  have e2 : idx_main_v26 (idx_main_v28 (idx_main_v30 (idx_main_v33 (ix2 (row b i) (row b j)) k))) = ix3 b j k := by
    funext a; apply Fin.ext
    have := b.isLt; have := j.isLt; have := k.isLt
    match a with
    | ⟨0, _⟩ => show ((100 * b.val + j.val) * 51 + k.val) / 5100 = b.val; omega
    | ⟨1, _⟩ => show ((100 * b.val + j.val) * 51 + k.val) / 51 % 100 = j.val; omega
    | ⟨2, _⟩ => show ((100 * b.val + j.val) * 51 + k.val) % 51 = k.val; omega
  rw [val_main_v32_apply, val_main_v31_apply, val_main_v29_apply, val_main_v27_apply, val_main_v25_apply, e1,
    val_main_v30_apply, val_main_v28_apply, val_main_v26_apply, e2]
  rfl

/-! ## The two log-softmax calls -/

/-- Inserting coordinate k on the last axis of the row index r gives (r, k). -/
theorem lift_row {m n : ℕ} (h : (⟨2, ![m, n]⟩ : Shape).Reduces [1] ⟨1, ![m]⟩) (r : Fin m) (k : Fin n) :
    h.lift (ix1 r) k = ix2 r k := by
  funext d
  apply Fin.ext
  show h.liftVal (ix1 r) k.val d = (ix2 r k d).val
  unfold Shape.Reduces.liftVal
  match d with
  | ⟨0, _⟩ => rfl
  | ⟨1, _⟩ => rfl

/-- The flattened action scores at (100·b + i, k). -/
theorem v34_at (x2 : (⟨S16x100x8, .f32⟩ : BufTy).Contents (Elt Ideal)) (b : Fin 16) (i : Fin 100) (k : Fin 8) :
    val_main_v34 (F := Ideal) x2 (ix2 (row b i) k) = x2 (ix3 b i k) := by
  rw [val_main_v34_apply]
  refine congrArg x2 (funext fun a => Fin.ext ?_)
  have := b.isLt; have := i.isLt; have := k.isLt
  match a with
  | ⟨0, _⟩ => show ((100 * b.val + i.val) * 8 + k.val) / 800 = b.val; omega
  | ⟨1, _⟩ => show ((100 * b.val + i.val) * 8 + k.val) / 8 % 100 = i.val; omega
  | ⟨2, _⟩ => show ((100 * b.val + i.val) * 8 + k.val) % 8 = k.val; omega

/-- The running maximum from -∞ of row 100·b + i of the action scores. -/
theorem call0_v0_at (x2 : (⟨S16x100x8, .f32⟩ : BufTy).Contents (Elt Ideal)) (b : Fin 16) (i : Fin 100) :
    val_main_call0_v0 (F := Ideal) x2 (ix1 (row b i))
      = (Finset.univ : Finset (Fin 8)).fold max negInf (fun k => x2 (ix3 b i k)) := by
  unfold val_main_call0_v0
  have h : S1600x8.Reduces [1] S1600 := by decide
  refine (Host.reduce_eq_fold_single FloatOps.maximumf _ _ reducesTo_S1600x8_S1600_d1 h h_S_ (ix1 (row b i))).trans ?_
  have hf : (val_main_v34 (F := Ideal) x2 ∘ h.lift (ix1 (row b i))) = fun k : Fin 8 => x2 (ix3 b i k) :=
    funext fun k => (congrArg (val_main_v34 (F := Ideal) x2) (lift_row h (row b i) k)).trans (v34_at x2 b i k)
  rw [hf]
  rfl

/-- The row maximum broadcast along the row. -/
theorem call0_v4_at (x2 : (⟨S16x100x8, .f32⟩ : BufTy).Contents (Elt Ideal)) (b : Fin 16) (i : Fin 100) (k : Fin 8) :
    val_main_call0_v4 (F := Ideal) x2 (ix2 (row b i) k) = rowMax (fun n : Fin 8 => x2 (ix3 b i n)) := by
  have e : idx_main_call0_v3 (idx_main_call0_v4 (ix2 (row b i) k)) = ix1 (row b i) := by
    funext a; match a with | ⟨0, _⟩ => rfl
  rw [val_main_call0_v4_apply, val_main_call0_v3_apply, e, val_main_call0_v2_apply, val_main_call0_v1_apply, val_main_call0_cst_0_apply,
    call0_v0_at x2 b i]
  rfl

/-- The scores shifted by the row maximum. -/
theorem call0_v5_at (x2 : (⟨S16x100x8, .f32⟩ : BufTy).Contents (Elt Ideal)) (b : Fin 16) (i : Fin 100) (k : Fin 8) :
    val_main_call0_v5 (F := Ideal) x2 (ix2 (row b i) k) = x2 (ix3 b i k) - rowMax (fun n : Fin 8 => x2 (ix3 b i n)) := by
  rw [val_main_call0_v5_apply, v34_at x2 b i k, call0_v4_at x2 b i k]
  rfl

/-- The logarithm of the row's sum of exponentials, broadcast along the row. -/
theorem call0_v10_at (x2 : (⟨S16x100x8, .f32⟩ : BufTy).Contents (Elt Ideal)) (b : Fin 16) (i : Fin 100) (k : Fin 8) :
    val_main_call0_v10 (F := Ideal) x2 (ix2 (row b i) k)
      = Ideal.log (∑ n : Fin 8, Ideal.exp (x2 (ix3 b i n) - rowMax (fun n : Fin 8 => x2 (ix3 b i n)))) := by
  have e : idx_main_call0_v8 (idx_main_call0_v10 (ix2 (row b i) k)) = ix1 (row b i) := by
    funext a; match a with | ⟨0, _⟩ => rfl
  rw [val_main_call0_v10_apply, val_main_call0_v9_apply, val_main_call0_v8_apply, e, val_main_call0_v7_apply, val_main_call0_cst_1_apply]
  simp only [Ideal.ofBits_def, Ideal.ofBits_zero_f32, zero_add, Ideal.hostUnary_log_def]
  refine congrArg Ideal.log (Finset.sum_congr rfl fun n _ => ?_)
  have e2 : idx_main_call0_v7 (ix1 (row b i)) n = ix2 (row b i) n := by
    funext a; match a with | ⟨0, _⟩ => rfl | ⟨1, _⟩ => rfl
  rw [e2, val_main_call0_v6_apply, call0_v5_at x2 b i n]
  rfl

/-- The negated log-softmax of row 100·b + i of the action scores at class 0. -/
theorem v38_at (x2 : (⟨S16x100x8, .f32⟩ : BufTy).Contents (Elt Ideal)) (b : Fin 16) (i : Fin 100) :
    val_main_v38 (F := Ideal) x2 (ix1 (row b i))
      = nls (x2 (ix3 b i (0 : Fin 8))) (fun n : Fin 8 => x2 (ix3 b i n)) := by
  have e : idx_main_v36 (idx_main_v37 (ix1 (row b i))) = ix2 (row b i) (0 : Fin 8) := by
    funext a; apply Fin.ext
    match a with
    | ⟨0, _⟩ => show (100 * b.val + i.val) / 1 = 100 * b.val + i.val; omega
    | ⟨1, _⟩ => rfl
  rw [val_main_v38_apply, val_main_v37_apply, val_main_v36_apply, e, val_main_v35_apply,
    call0_v5_at x2 b i (0 : Fin 8), call0_v10_at x2 b i (0 : Fin 8)]
  rfl

/-- The flattened identity scores at (100·b + i, k). -/
theorem v39_at (x3 : (⟨S16x100x10, .f32⟩ : BufTy).Contents (Elt Ideal)) (b : Fin 16) (i : Fin 100) (k : Fin 10) :
    val_main_v39 (F := Ideal) x3 (ix2 (row b i) k) = x3 (ix3 b i k) := by
  rw [val_main_v39_apply]
  refine congrArg x3 (funext fun a => Fin.ext ?_)
  have := b.isLt; have := i.isLt; have := k.isLt
  match a with
  | ⟨0, _⟩ => show ((100 * b.val + i.val) * 10 + k.val) / 1000 = b.val; omega
  | ⟨1, _⟩ => show ((100 * b.val + i.val) * 10 + k.val) / 10 % 100 = i.val; omega
  | ⟨2, _⟩ => show ((100 * b.val + i.val) * 10 + k.val) % 10 = k.val; omega

/-- The running maximum from -∞ of row 100·b + i of the identity scores. -/
theorem call1_v0_at (x3 : (⟨S16x100x10, .f32⟩ : BufTy).Contents (Elt Ideal)) (b : Fin 16) (i : Fin 100) :
    val_main_call1_v0 (F := Ideal) x3 (ix1 (row b i))
      = (Finset.univ : Finset (Fin 10)).fold max negInf (fun k => x3 (ix3 b i k)) := by
  unfold val_main_call1_v0
  have h : S1600x10.Reduces [1] S1600 := by decide
  refine (Host.reduce_eq_fold_single FloatOps.maximumf _ _ reducesTo_S1600x10_S1600_d1 h h_S_ (ix1 (row b i))).trans ?_
  have hf : (val_main_v39 (F := Ideal) x3 ∘ h.lift (ix1 (row b i))) = fun k : Fin 10 => x3 (ix3 b i k) :=
    funext fun k => (congrArg (val_main_v39 (F := Ideal) x3) (lift_row h (row b i) k)).trans (v39_at x3 b i k)
  rw [hf]
  rfl

/-- The row maximum broadcast along the row. -/
theorem call1_v4_at (x3 : (⟨S16x100x10, .f32⟩ : BufTy).Contents (Elt Ideal)) (b : Fin 16) (i : Fin 100) (k : Fin 10) :
    val_main_call1_v4 (F := Ideal) x3 (ix2 (row b i) k) = rowMax (fun n : Fin 10 => x3 (ix3 b i n)) := by
  have e : idx_main_call1_v3 (idx_main_call1_v4 (ix2 (row b i) k)) = ix1 (row b i) := by
    funext a; match a with | ⟨0, _⟩ => rfl
  rw [val_main_call1_v4_apply, val_main_call1_v3_apply, e, val_main_call1_v2_apply, val_main_call1_v1_apply, val_main_call1_cst_0_apply,
    call1_v0_at x3 b i]
  rfl

/-- The scores shifted by the row maximum. -/
theorem call1_v5_at (x3 : (⟨S16x100x10, .f32⟩ : BufTy).Contents (Elt Ideal)) (b : Fin 16) (i : Fin 100) (k : Fin 10) :
    val_main_call1_v5 (F := Ideal) x3 (ix2 (row b i) k) = x3 (ix3 b i k) - rowMax (fun n : Fin 10 => x3 (ix3 b i n)) := by
  rw [val_main_call1_v5_apply, v39_at x3 b i k, call1_v4_at x3 b i k]
  rfl

/-- The logarithm of the row's sum of exponentials, broadcast along the row. -/
theorem call1_v10_at (x3 : (⟨S16x100x10, .f32⟩ : BufTy).Contents (Elt Ideal)) (b : Fin 16) (i : Fin 100) (k : Fin 10) :
    val_main_call1_v10 (F := Ideal) x3 (ix2 (row b i) k)
      = Ideal.log (∑ n : Fin 10, Ideal.exp (x3 (ix3 b i n) - rowMax (fun n : Fin 10 => x3 (ix3 b i n)))) := by
  have e : idx_main_call1_v8 (idx_main_call1_v10 (ix2 (row b i) k)) = ix1 (row b i) := by
    funext a; match a with | ⟨0, _⟩ => rfl
  rw [val_main_call1_v10_apply, val_main_call1_v9_apply, val_main_call1_v8_apply, e, val_main_call1_v7_apply, val_main_call1_cst_1_apply]
  simp only [Ideal.ofBits_def, Ideal.ofBits_zero_f32, zero_add, Ideal.hostUnary_log_def]
  refine congrArg Ideal.log (Finset.sum_congr rfl fun n _ => ?_)
  have e2 : idx_main_call1_v7 (ix1 (row b i)) n = ix2 (row b i) n := by
    funext a; match a with | ⟨0, _⟩ => rfl | ⟨1, _⟩ => rfl
  rw [e2, val_main_call1_v6_apply, call1_v5_at x3 b i n]
  rfl

/-- The negated log-softmax of row 100·b + i of the identity scores at class 0. -/
theorem v43_at (x3 : (⟨S16x100x10, .f32⟩ : BufTy).Contents (Elt Ideal)) (b : Fin 16) (i : Fin 100) :
    val_main_v43 (F := Ideal) x3 (ix1 (row b i))
      = nls (x3 (ix3 b i (0 : Fin 10))) (fun n : Fin 10 => x3 (ix3 b i n)) := by
  have e : idx_main_v41 (idx_main_v42 (ix1 (row b i))) = ix2 (row b i) (0 : Fin 10) := by
    funext a; apply Fin.ext
    match a with
    | ⟨0, _⟩ => show (100 * b.val + i.val) / 1 = 100 * b.val + i.val; omega
    | ⟨1, _⟩ => rfl
  rw [val_main_v43_apply, val_main_v42_apply, val_main_v41_apply, e, val_main_v40_apply,
    call1_v5_at x3 b i (0 : Fin 10), call1_v10_at x3 b i (0 : Fin 10)]
  rfl

/-! ## The combination and the diagonal blocks -/

/-- Entry (100·b + i, 100·b + j) of the full cost matrix is the cost entry at (b, i, j): the weights are 1. -/
theorem v56_at (x0 : (⟨S16x100x1, .f32⟩ : BufTy).Contents (Elt Ideal)) (x1 : (⟨S16x100x51, .f32⟩ : BufTy).Contents (Elt Ideal))
    (x2 : (⟨S16x100x8, .f32⟩ : BufTy).Contents (Elt Ideal)) (x3 : (⟨S16x100x10, .f32⟩ : BufTy).Contents (Elt Ideal))
    (x4 : (⟨S16x100, .f32⟩ : BufTy).Contents (Elt Ideal)) (x5 : (⟨S16x100x51, .f32⟩ : BufTy).Contents (Elt Ideal))
    (b : Fin 16) (i j : Fin 100) :
    val_main_v56 (F := Ideal) x0 x1 x2 x3 x4 x5 (ix2 (row b i) (row b j)) = costAt x0 x1 x2 x3 x4 x5 b i j := by
  have e : idx_main_v54 (idx_main_v55 (ix2 (row b i) (row b j))) = ix1 (row b i) := by
    funext a; match a with | ⟨0, _⟩ => rfl
  rw [val_main_v56_apply, val_main_v48_apply, val_main_v45_apply, val_main_v47_apply, val_main_v44_apply, val_main_v46_apply,
    val_main_cst_3_apply, val_main_cst_4_apply, val_main_v55_apply, val_main_v54_apply, e, val_main_v53_apply, val_main_v50_apply,
    val_main_v52_apply, val_main_v49_apply, val_main_v51_apply, val_main_cst_5_apply, val_main_cst_6_apply,
    v24_at x0 x4 b i j, v33_at x1 x5 b i j, v38_at x2 b i, v43_at x3 b i]
  simp only [Ideal.ofBits_def, Ideal.addf_def, Ideal.mulf_def, Cert.LogSigmoid.ofBits_one_f32, one_mul]
  rfl

/-- Entry (b, i, b, j) of the matrix reshaped to four axes is its entry (100·b + i, 100·b + j). -/
theorem v57_at (x0 : (⟨S16x100x1, .f32⟩ : BufTy).Contents (Elt Ideal)) (x1 : (⟨S16x100x51, .f32⟩ : BufTy).Contents (Elt Ideal))
    (x2 : (⟨S16x100x8, .f32⟩ : BufTy).Contents (Elt Ideal)) (x3 : (⟨S16x100x10, .f32⟩ : BufTy).Contents (Elt Ideal))
    (x4 : (⟨S16x100, .f32⟩ : BufTy).Contents (Elt Ideal)) (x5 : (⟨S16x100x51, .f32⟩ : BufTy).Contents (Elt Ideal))
    (b : Fin 16) (i j : Fin 100) :
    val_main_v57 (F := Ideal) x0 x1 x2 x3 x4 x5 (ix4 b i b j)
      = val_main_v56 (F := Ideal) x0 x1 x2 x3 x4 x5 (ix2 (row b i) (row b j)) := by
  rw [val_main_v57_apply]
  refine congrArg _ (funext fun a => Fin.ext ?_)
  have := b.isLt; have := i.isLt; have := j.isLt
  match a with
  | ⟨0, _⟩ => show (((b.val * 100 + i.val) * 16 + b.val) * 100 + j.val) / 1600 = 100 * b.val + i.val; omega
  | ⟨1, _⟩ => show (((b.val * 100 + i.val) * 16 + b.val) * 100 + j.val) % 1600 = 100 * b.val + j.val; omega

/-- THE REFERENCE IS THE SPECIFICATION: the diagonal blocks of the full cost matrix are the cost array. -/
theorem ref_eq_cost (x0 : (⟨S16x100x1, .f32⟩ : BufTy).Contents (Elt Ideal)) (x1 : (⟨S16x100x51, .f32⟩ : BufTy).Contents (Elt Ideal))
    (x2 : (⟨S16x100x8, .f32⟩ : BufTy).Contents (Elt Ideal)) (x3 : (⟨S16x100x10, .f32⟩ : BufTy).Contents (Elt Ideal))
    (x4 : (⟨S16x100, .f32⟩ : BufTy).Contents (Elt Ideal)) (x5 : (⟨S16x100x51, .f32⟩ : BufTy).Contents (Elt Ideal)) :
    val_main_v73 (F := Ideal) x0 x1 x2 x3 x4 x5 = cost x0 x1 x2 x3 x4 x5 := by
  funext y
  obtain ⟨b, i, j, rfl⟩ : ∃ (b : Fin 16) (i j : Fin 100), y = ix3 b i j := ⟨y 0, y 1, y 2, eq_ix3 y⟩
  rw [cost_ix3]
  show val_main_v57 (F := Ideal) x0 x1 x2 x3 x4 x5 (gd.operandIdx (ix3 b i j) (val_main_v72 (F := Ideal))) = _
  rw [gather_idx, v57_at, v56_at]

end Cert.RefIsCost

end
-- ==== Proof.lean ====
/-
  The matching-cost kernel against its reference, on the extended reals.

  Both programs compute, for every batch b and every pair of a predicted query i and a target query j of that batch,

      C(b,i,j) = ( bce(t, log σ(x), log(1 - σ(x))) + Σ_{k<51} |P(b,i,k) - T(b,j,k)| ) + ( nls(a(b,i,·)) + nls(d(b,i,·)) )

  (Proof/CostSpec.lean).  The reference forms the whole 1600 × 1600 cost matrix over all query pairs — log σ(x) as the
  logarithm of 1/(1 + e^{-x}), log(1 - σ(x)) as log1p(-σ(x)), every term multiplied by a weight 1 — and then gathers the
  sixteen diagonal 100 × 100 blocks (Proof/RefIsCost.lean).  The kernel handles four batches per grid point and, for each
  batch, computes the two logarithms as -softplus(-x) and -softplus(x) with softplus y = max(y,0) + log1p(e^{-|y|}), and
  the L1 distance over joint coordinates that the host has transposed and padded with zeros from 51 to 56, added up in
  seven chunks of eight (Proof/BatchFn.lean, Proof/BatchRead.lean: one batch of the body and its value at an entry;
  Proof/KernelValue.lean: the four batches of a block and the four blocks of the array; Proof/HostPrefix.lean: the padded,
  transposed and reshaped arrays the region finds).  The two agree wherever the confidence x is a real number, which the
  precondition gives (Proof/FinitePredConf.lean): for real x, log(1/(1 + e^{-x})) = -log(1 + e^{-x}) = -softplus(-x) and
  log(1 - 1/(1 + e^{-x})) = -log(1 + e^{x}) = -softplus(x) (Proof/LogSigmoid.lean); the padded coordinates contribute
  |0 - 0| = 0 and a sum on the extended reals may be regrouped freely (Proof/KernelMath.lean).  Nothing else of the
  precondition is used: the L1 and log-softmax terms are the same expressions of the same entries on both sides.
-/
import proofs.«133896_j37967510896919_2_alg».proof.Defs
import proofs.«133896_j37967510896919_2_alg».proof.Proof.Gen.Kernel
import proofs.«133896_j37967510896919_2_alg».proof.Proof.Gen.Kernel.Skeleton
import proofs.«133896_j37967510896919_2_alg».proof.Proof.Gen.Kernel.Launch
import proofs.«133896_j37967510896919_2_alg».proof.Proof.Gen.Kernel.Points
import proofs.«133896_j37967510896919_2_alg».proof.Proof.Gen.Kernel.Frame
import proofs.«133896_j37967510896919_2_alg».proof.Proof.Gen.KernelIdeal
import proofs.«133896_j37967510896919_2_alg».proof.Proof.Gen.KernelIdeal.Skeleton
import proofs.«133896_j37967510896919_2_alg».proof.Proof.Gen.KernelIdeal.Launch
import proofs.«133896_j37967510896919_2_alg».proof.Proof.Gen.KernelIdeal.Points
import proofs.«133896_j37967510896919_2_alg».proof.Proof.Gen.KernelIdeal.Frame
import proofs.«133896_j37967510896919_2_alg».proof.Proof.Gen.ReferenceIdeal
import proofs.«133896_j37967510896919_2_alg».proof.Proof.Gen.Pre_finite_inputs
import proofs.«133896_j37967510896919_2_alg».proof.Proof.Gen.KernelIdeal.Value
import proofs.«133896_j37967510896919_2_alg».proof.Proof.RefRunP
import proofs.«133896_j37967510896919_2_alg».proof.Proof.RefReadP
import proofs.«133896_j37967510896919_2_alg».proof.Proof.CostSpec
import proofs.«133896_j37967510896919_2_alg».proof.Proof.KernelMath
import proofs.«133896_j37967510896919_2_alg».proof.Proof.HostPrefix
import proofs.«133896_j37967510896919_2_alg».proof.Proof.FinitePredConf
import proofs.«133896_j37967510896919_2_alg».proof.Proof.KernelValue
import proofs.«133896_j37967510896919_2_alg».proof.Proof.RefIsCost
import Idealize.ShloMosaic.Adequacy
import Idealize.ShloMosaic.Init

noncomputable section

namespace Cert.Proof

open Idealize.ShloMosaic Idealize.ShloMosaic.ValueIdx Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the cost array C of the argument arrays: the kernel's array is its own formula of
    the staged arrays, which is C because the confidences are real; the reference's result term is C outright. -/
theorem algebraic : Cert.algebraic_KernelIdeal_ReferenceIdeal := by
  intro m ρ m' ρ' hpre hagree
  refine ⟨fun (c : Dev Cert.KernelIdeal.nD) => Cert.CostSpec.cost
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩) (Cert.KernelValue.run m ρ)
    show Cert.KernelValue.karr _ _ _ _ _ _ = Cert.CostSpec.cost _ _ _ _ _ _
    funext y
    obtain ⟨b, i, j, rfl⟩ : ∃ (b : Fin 16) (i j : Fin 100), y = ix3 b i j := ⟨y 0, y 1, y 2, eq_ix3 y⟩
    rw [Cert.KernelValue.karr_ix3, Cert.CostSpec.cost_ix3, Cert.KernelIdeal.Gen.V_main_arg0, Cert.KernelIdeal.Gen.V_main_arg2,
      Cert.KernelIdeal.Gen.V_main_arg3]
    exact Cert.KernelMath.kcostAt_eq_costAt _ _ _ _ _ _ _ _ _ (Cert.HostPrefix.V_v1_apply m c) (Cert.HostPrefix.V_v3_apply m c)
      (Cert.HostPrefix.V_v4_apply m c) (Cert.FinitePredConf.real_of_pre _ _ _ _ _ _ _ _ (hpre c)) b i j
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v73_eq, Cert.RefIsCost.ref_eq_cost, (hagree c).1, (hagree c).2.1,
      (hagree c).2.2.1, (hagree c).2.2.2.1, (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
